-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S5000x128 : Shape := ⟨2, ![5000, 128]⟩
abbrev S1600000x128 : Shape := ⟨2, ![1600000, 128]⟩
abbrev S100000x1 : Shape := ⟨2, ![100000, 1]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S1000x64 : Shape := ⟨2, ![1000, 64]⟩

abbrev nBuf : Space → Nat
  | .hbm => 111
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x1, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x1, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1x128, .f32⟩
  | .hbm, ⟨85, _⟩ => ⟨S100000x1, .f32⟩
  | .hbm, ⟨86, _⟩ => ⟨S100000x128, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x1, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1x64, .f32⟩
  | .hbm, ⟨105, _⟩ => ⟨S100000x1, .f32⟩
  | .hbm, ⟨106, _⟩ => ⟨S100000x64, .f32⟩
  | .hbm, ⟨107, _⟩ => ⟨S_, .f32⟩
  | .hbm, ⟨108, _⟩ => ⟨S1000x64, .f32⟩
  | .hbm, ⟨109, _⟩ => ⟨S100000x1, .i32⟩
  | .hbm, ⟨110, _⟩ => ⟨S1000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x1, .f32⟩
  | .local _ .vmem, ⟨44, _⟩ => ⟨S5000x1, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1000x64 : S_.BroadcastsInDim S1000x64 (![] : Fin 0 → Fin S1000x64.rank)
  bcast_S100000_S100000x1_0 : S100000.BroadcastsInDim S100000x1 (![0] : Fin 1 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v62) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v77) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S1000x64 : Shape := ⟨2, ![1000, 64]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x1, .f32⟩
  | 87 => ⟨S1600000x128, .f32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000x1, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x1, .f32⟩
  | 114 => ⟨S1600000x64, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S1000x64, .f32⟩
  | 1 => ⟨S100000x1, .i32⟩
  | 2 => ⟨S1000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call0_cst : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call1_cst : Ref sig .tc := ⟨.hbm, 100, rfl⟩
abbrev main_call1_v0 : Ref sig .tc := ⟨.hbm, 101, rfl⟩
abbrev main_v74 : Ref sig .tc := ⟨.hbm, 102, rfl⟩
abbrev main_v75 : Ref sig .tc := ⟨.hbm, 103, rfl⟩
abbrev main_c_11 : Ref sig .tc := ⟨.hbm, 104, rfl⟩
abbrev main_v76 : Ref sig .tc := ⟨.hbm, 105, rfl⟩
abbrev main_v77 : Ref sig .tc := ⟨.hbm, 106, rfl⟩
abbrev main_c_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf

class Facts : Prop extends Facts₀ where

variable [Facts]
-- ==== Proof.KernelRun.lean ====
/-
  The idealized kernel's run with its result named: every weakly fair execution of @main ends with the returned array
  holding what the last stretch of host operations leaves in it — the fold of @main's segments from the launch memory
  read at the result's buffer — and with the argument arrays as launched. It is the frame's own argument (the launch
  over @main's segments, the last thread state read against the final state) with the result's buffer read as well.
-/
import proofs.«182192_j72765335929134_1_alg».proof.Proof.Gen.KernelIdeal.Frame

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Layer

end
-- ==== Proof.Carry.lean ====
/-
  The buffers a later segment of @main reads are the ones an earlier segment left: a buffer no operation of a stretch
  writes and no pallas call has among its arrays is carried unchanged across that segment. This file carries the edge
  bookkeeping of the first stretch (the edges' sources and targets, the edge weights, the self-loop weights), the weight
  and bias arguments, and each projection's output forward to the segment that reads them.
-/
import proofs.«182192_j72765335929134_1_alg».proof.Proof.Gen.KernelIdeal.Frame
import Idealize.ShloMosaic.PureOps.Ideal

set_option maxRecDepth 16384

noncomputable section

namespace Cert.KernelIdeal.Layer

open Cert.KernelIdeal Cert.KernelIdeal.Gen Idealize.ShloMosaic Idealize.ShloMosaic.TcCoe
open Idealize.SL.Sem

/-- A buffer none of a stretch's operations writes holds after the stretch what it held before. -/
macro "untouched" : tactic => `(tactic| (
  refine StableHlo.after_of_forall_not_mem _ _ (List.forall_iff_forall_mem.mp ?_)
  simp only [hostOps0, hostOps2, hostOps4, hostOps6, hostOps7, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

theorem v1_at3 : W3 m ρ c (Proc.devRef .tc main_v1) = W1 m ρ c (Proc.devRef .tc main_v1) :=
  ((W3_of_ne m ρ c main_v1 (by decide)).trans
    (W2_of_ne m ρ c main_v1 (by decide)))

theorem v1_at6 : W6 m ρ c (Proc.devRef .tc main_v1) = W1 m ρ c (Proc.devRef .tc main_v1) :=
  ((W6_of_ne m ρ c main_v1 (by decide)).trans
    ((W5_of_ne m ρ c main_v1 (by decide)).trans
    ((by untouched : W4 m ρ c (Proc.devRef .tc main_v1) = W3 m ρ c (Proc.devRef .tc main_v1)).trans
    (v1_at3 m ρ c))))

theorem v1_at9 : W9 m ρ c (Proc.devRef .tc main_v1) = W1 m ρ c (Proc.devRef .tc main_v1) :=
  ((W9_of_ne m ρ c main_v1 (by decide)).trans
    ((W8_of_ne m ρ c main_v1 (by decide)).trans
    ((by untouched : W7 m ρ c (Proc.devRef .tc main_v1) = W6 m ρ c (Proc.devRef .tc main_v1)).trans
    (v1_at6 m ρ c))))

theorem v3_at3 : W3 m ρ c (Proc.devRef .tc main_v3) = W1 m ρ c (Proc.devRef .tc main_v3) :=
  ((W3_of_ne m ρ c main_v3 (by decide)).trans
    (W2_of_ne m ρ c main_v3 (by decide)))

theorem v3_at6 : W6 m ρ c (Proc.devRef .tc main_v3) = W1 m ρ c (Proc.devRef .tc main_v3) :=
  ((W6_of_ne m ρ c main_v3 (by decide)).trans
    ((W5_of_ne m ρ c main_v3 (by decide)).trans
    ((by untouched : W4 m ρ c (Proc.devRef .tc main_v3) = W3 m ρ c (Proc.devRef .tc main_v3)).trans
    (v3_at3 m ρ c))))

theorem v3_at9 : W9 m ρ c (Proc.devRef .tc main_v3) = W1 m ρ c (Proc.devRef .tc main_v3) :=
  ((W9_of_ne m ρ c main_v3 (by decide)).trans
    ((W8_of_ne m ρ c main_v3 (by decide)).trans
    ((by untouched : W7 m ρ c (Proc.devRef .tc main_v3) = W6 m ρ c (Proc.devRef .tc main_v3)).trans
    (v3_at6 m ρ c))))

theorem v25_at3 : W3 m ρ c (Proc.devRef .tc main_v25) = W1 m ρ c (Proc.devRef .tc main_v25) :=
  ((W3_of_ne m ρ c main_v25 (by decide)).trans
    (W2_of_ne m ρ c main_v25 (by decide)))

theorem v25_at6 : W6 m ρ c (Proc.devRef .tc main_v25) = W1 m ρ c (Proc.devRef .tc main_v25) :=
  ((W6_of_ne m ρ c main_v25 (by decide)).trans
    ((W5_of_ne m ρ c main_v25 (by decide)).trans
    ((by untouched : W4 m ρ c (Proc.devRef .tc main_v25) = W3 m ρ c (Proc.devRef .tc main_v25)).trans
    (v25_at3 m ρ c))))

theorem v25_at9 : W9 m ρ c (Proc.devRef .tc main_v25) = W1 m ρ c (Proc.devRef .tc main_v25) :=
  ((W9_of_ne m ρ c main_v25 (by decide)).trans
    ((W8_of_ne m ρ c main_v25 (by decide)).trans
    ((by untouched : W7 m ρ c (Proc.devRef .tc main_v25) = W6 m ρ c (Proc.devRef .tc main_v25)).trans
    (v25_at6 m ρ c))))

theorem v26_at3 : W3 m ρ c (Proc.devRef .tc main_v26) = W1 m ρ c (Proc.devRef .tc main_v26) :=
  ((W3_of_ne m ρ c main_v26 (by decide)).trans
    (W2_of_ne m ρ c main_v26 (by decide)))

theorem v26_at6 : W6 m ρ c (Proc.devRef .tc main_v26) = W1 m ρ c (Proc.devRef .tc main_v26) :=
  ((W6_of_ne m ρ c main_v26 (by decide)).trans
    ((W5_of_ne m ρ c main_v26 (by decide)).trans
    ((by untouched : W4 m ρ c (Proc.devRef .tc main_v26) = W3 m ρ c (Proc.devRef .tc main_v26)).trans
    (v26_at3 m ρ c))))

theorem v26_at9 : W9 m ρ c (Proc.devRef .tc main_v26) = W1 m ρ c (Proc.devRef .tc main_v26) :=
  ((W9_of_ne m ρ c main_v26 (by decide)).trans
    ((W8_of_ne m ρ c main_v26 (by decide)).trans
    ((by untouched : W7 m ρ c (Proc.devRef .tc main_v26) = W6 m ρ c (Proc.devRef .tc main_v26)).trans
    (v26_at6 m ρ c))))

theorem arg0_at1 : W1 m ρ c (Proc.devRef .tc main_arg0) = W0 m ρ c (Proc.devRef .tc main_arg0) :=
  (by untouched : W1 m ρ c (Proc.devRef .tc main_arg0) = W0 m ρ c (Proc.devRef .tc main_arg0))

theorem arg3_at1 : W1 m ρ c (Proc.devRef .tc main_arg3) = W0 m ρ c (Proc.devRef .tc main_arg3) :=
  (by untouched : W1 m ρ c (Proc.devRef .tc main_arg3) = W0 m ρ c (Proc.devRef .tc main_arg3))

theorem arg5_at2 : W2 m ρ c (Proc.devRef .tc main_arg5) = W0 m ρ c (Proc.devRef .tc main_arg5) :=
  ((W2_of_ne m ρ c main_arg5 (by decide)).trans
    (by untouched : W1 m ρ c (Proc.devRef .tc main_arg5) = W0 m ρ c (Proc.devRef .tc main_arg5)))

theorem arg6_at3 : W3 m ρ c (Proc.devRef .tc main_arg6) = W0 m ρ c (Proc.devRef .tc main_arg6) :=
  ((W3_of_ne m ρ c main_arg6 (by decide)).trans
    ((W2_of_ne m ρ c main_arg6 (by decide)).trans
    (by untouched : W1 m ρ c (Proc.devRef .tc main_arg6) = W0 m ρ c (Proc.devRef .tc main_arg6))))

theorem arg7_at5 : W5 m ρ c (Proc.devRef .tc main_arg7) = W0 m ρ c (Proc.devRef .tc main_arg7) :=
  ((W5_of_ne m ρ c main_arg7 (by decide)).trans
    ((by untouched : W4 m ρ c (Proc.devRef .tc main_arg7) = W3 m ρ c (Proc.devRef .tc main_arg7)).trans
    ((W3_of_ne m ρ c main_arg7 (by decide)).trans
    ((W2_of_ne m ρ c main_arg7 (by decide)).trans
    (by untouched : W1 m ρ c (Proc.devRef .tc main_arg7) = W0 m ρ c (Proc.devRef .tc main_arg7))))))

theorem arg8_at6 : W6 m ρ c (Proc.devRef .tc main_arg8) = W0 m ρ c (Proc.devRef .tc main_arg8) :=
  ((W6_of_ne m ρ c main_arg8 (by decide)).trans
    ((W5_of_ne m ρ c main_arg8 (by decide)).trans
    ((by untouched : W4 m ρ c (Proc.devRef .tc main_arg8) = W3 m ρ c (Proc.devRef .tc main_arg8)).trans
    ((W3_of_ne m ρ c main_arg8 (by decide)).trans
    ((W2_of_ne m ρ c main_arg8 (by decide)).trans
    (by untouched : W1 m ρ c (Proc.devRef .tc main_arg8) = W0 m ρ c (Proc.devRef .tc main_arg8)))))))

theorem arg9_at8 : W8 m ρ c (Proc.devRef .tc main_arg9) = W0 m ρ c (Proc.devRef .tc main_arg9) :=
  ((W8_of_ne m ρ c main_arg9 (by decide)).trans
    ((by untouched : W7 m ρ c (Proc.devRef .tc main_arg9) = W6 m ρ c (Proc.devRef .tc main_arg9)).trans
    ((W6_of_ne m ρ c main_arg9 (by decide)).trans
    ((W5_of_ne m ρ c main_arg9 (by decide)).trans
    ((by untouched : W4 m ρ c (Proc.devRef .tc main_arg9) = W3 m ρ c (Proc.devRef .tc main_arg9)).trans
    ((W3_of_ne m ρ c main_arg9 (by decide)).trans
    ((W2_of_ne m ρ c main_arg9 (by decide)).trans
    (by untouched : W1 m ρ c (Proc.devRef .tc main_arg9) = W0 m ρ c (Proc.devRef .tc main_arg9)))))))))

theorem arg10_at9 : W9 m ρ c (Proc.devRef .tc main_arg10) = W0 m ρ c (Proc.devRef .tc main_arg10) :=
  ((W9_of_ne m ρ c main_arg10 (by decide)).trans
    ((W8_of_ne m ρ c main_arg10 (by decide)).trans
    ((by untouched : W7 m ρ c (Proc.devRef .tc main_arg10) = W6 m ρ c (Proc.devRef .tc main_arg10)).trans
    ((W6_of_ne m ρ c main_arg10 (by decide)).trans
    ((W5_of_ne m ρ c main_arg10 (by decide)).trans
    ((by untouched : W4 m ρ c (Proc.devRef .tc main_arg10) = W3 m ρ c (Proc.devRef .tc main_arg10)).trans
    ((W3_of_ne m ρ c main_arg10 (by decide)).trans
    ((W2_of_ne m ρ c main_arg10 (by decide)).trans
    (by untouched : W1 m ρ c (Proc.devRef .tc main_arg10) = W0 m ρ c (Proc.devRef .tc main_arg10))))))))))

theorem arg2_at11 : W11 m ρ c (Proc.devRef .tc main_arg2) = W0 m ρ c (Proc.devRef .tc main_arg2) :=
  ((W11_of_ne m ρ c main_arg2 (by decide)).trans
    ((by untouched : W10 m ρ c (Proc.devRef .tc main_arg2) = W9 m ρ c (Proc.devRef .tc main_arg2)).trans
    ((W9_of_ne m ρ c main_arg2 (by decide)).trans
    ((W8_of_ne m ρ c main_arg2 (by decide)).trans
    ((by untouched : W7 m ρ c (Proc.devRef .tc main_arg2) = W6 m ρ c (Proc.devRef .tc main_arg2)).trans
    ((W6_of_ne m ρ c main_arg2 (by decide)).trans
    ((W5_of_ne m ρ c main_arg2 (by decide)).trans
    ((by untouched : W4 m ρ c (Proc.devRef .tc main_arg2) = W3 m ρ c (Proc.devRef .tc main_arg2)).trans
    ((W3_of_ne m ρ c main_arg2 (by decide)).trans
    ((W2_of_ne m ρ c main_arg2 (by decide)).trans
    (by untouched : W1 m ρ c (Proc.devRef .tc main_arg2) = W0 m ρ c (Proc.devRef .tc main_arg2))))))))))))

theorem v29_at4 : W4 m ρ c (Proc.devRef .tc main_v29) = W3 m ρ c (Proc.devRef .tc main_v29) :=
  (by untouched : W4 m ρ c (Proc.devRef .tc main_v29) = W3 m ρ c (Proc.devRef .tc main_v29))

theorem v46_at7 : W7 m ρ c (Proc.devRef .tc main_v46) = W6 m ρ c (Proc.devRef .tc main_v46) :=
  (by untouched : W7 m ρ c (Proc.devRef .tc main_v46) = W6 m ρ c (Proc.devRef .tc main_v46))

theorem v63_at10 : W10 m ρ c (Proc.devRef .tc main_v63) = W9 m ρ c (Proc.devRef .tc main_v63) :=
  (by untouched : W10 m ρ c (Proc.devRef .tc main_v63) = W9 m ρ c (Proc.devRef .tc main_v63))

end Cert.KernelIdeal.Layer

end
-- ==== Proof.Stretch.lean ====
/-
  The stretches of host operations between the pallas calls, each read as a function of the buffers it is entered
  with: the edge bookkeeping computed once at the start (source and target node of every edge, the edge weights
  d[src]·d[dst] and the self-loop weights d·d from the degrees), the neighbourhood sum of a layer (rows of the projected
  features looked up at the edges' sources, scaled by the edge weights and accumulated at the edges' targets), the bias
  vectors and the self-loop weights laid out as a row and as a column, and the final sum over the nodes of each graph.
-/
import proofs.«182192_j72765335929134_1_alg».proof.Proof.Gen.KernelIdeal.Frame
import proofs.«182192_j72765335929134_1_alg».proof.Proof.Gen.ReferenceIdeal.Read
import Idealize.ShloMosaic.Lib.StableHlo.Run

set_option maxRecDepth 16384

noncomputable section

namespace Cert.KernelIdeal.Layer

open Cert.KernelIdeal Cert.KernelIdeal.Gen Idealize.ShloMosaic Idealize.ShloMosaic.TcCoe Idealize.ShloMosaic.StableHlo
open Idealize.SL.Sem

/-- The neighbourhood sum of a 128-column layer: the rows of `P` at the edges' sources (a negative index wrapped by
    the number of nodes), each scaled by its edge's weight, accumulated into zeros at the edges' targets. -/
def agg128 (src dst : (⟨S1600000, .i32⟩ : BufTy).Contents (Elt Ideal)) (norm : (⟨S1600000, .f32⟩ : BufTy).Contents (Elt Ideal))
    (P : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal) (Host.gather gather_S100000x128_S1600000x1_S1600000x128_1_0_n_n_0_1_1128 P
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 norm)))

/-- The same for a 64-column layer. -/
def agg64 (src dst : (⟨S1600000, .i32⟩ : BufTy).Contents (Elt Ideal)) (norm : (⟨S1600000, .f32⟩ : BufTy).Contents (Elt Ideal))
    (P : (⟨S100000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (F := Ideal) (Host.gather gather_S100000x64_S1600000x1_S1600000x64_1_0_n_n_0_1_164 P
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 norm)))

/-- The sum of the nodes' rows over each graph: the rows of `H` accumulated into zeros at the nodes' graph numbers. -/
def pool (batch : (⟨S100000, .i32⟩ : BufTy).Contents (Elt Ideal)) (H : (⟨S100000x64, .f32⟩ : BufTy).Contents (Elt Ideal)) :
    (⟨S1000x64, .f32⟩ : BufTy).Contents (Elt Ideal) :=
  Host.scatterAdd (F := Ideal) scatter_S1000x64_S100000x1_S100000x64_1_0_0_1
    (broadcastInDim S1000x64 ![] bcast_S_S1000x64 (constant (F := Ideal) S_ .f32 0x00000000#32))
    (broadcastInDim S100000x1 ![0] bcast_S100000_S100000x1_0 batch) H

variable (W : Valuation τ sig (Elt Ideal))

/-! ## The first stretch: the edge bookkeeping and the embedding's bias row -/

theorem first_src : StableHlo.after (hostOps0 (F := Ideal)) W (Proc.devRef .tc main_v1)
    = Cert.ReferenceIdeal.Read.val_main_v1 (W (Proc.devRef .tc main_arg1)) := by
  after_results_simp <;> rfl

theorem first_dst : StableHlo.after (hostOps0 (F := Ideal)) W (Proc.devRef .tc main_v3)
    = Cert.ReferenceIdeal.Read.val_main_v3 (W (Proc.devRef .tc main_arg1)) := by
  after_results_simp <;> rfl

theorem first_edge_weight : StableHlo.after (hostOps0 (F := Ideal)) W (Proc.devRef .tc main_v25)
    = Cert.ReferenceIdeal.Read.val_main_v25 (W (Proc.devRef .tc main_arg1)) := by
  after_results_simp <;> rfl

theorem first_self_weight : StableHlo.after (hostOps0 (F := Ideal)) W (Proc.devRef .tc main_v26)
    = Cert.ReferenceIdeal.Read.val_main_v26 (W (Proc.devRef .tc main_arg1)) := by
  after_results_simp <;> rfl

theorem first_bias_row : StableHlo.after (hostOps0 (F := Ideal)) W (Proc.devRef .tc main_v27)
    = shapeCast S1x128 (W (Proc.devRef .tc main_arg4)) shapeCasts_S128_S1x128 := by
  after_results_simp <;> rfl

/-! ## The stretches before the three combinations -/

theorem second_agg : StableHlo.after (hostOps2 (F := Ideal)) W (Proc.devRef .tc main_v42)
    = agg128 (W (Proc.devRef .tc main_v1)) (W (Proc.devRef .tc main_v3)) (W (Proc.devRef .tc main_v25)) (W (Proc.devRef .tc main_v29)) := by
  after_results_simp <;> rfl

theorem second_bias_row : StableHlo.after (hostOps2 (F := Ideal)) W (Proc.devRef .tc main_v43)
    = shapeCast S1x128 (W (Proc.devRef .tc main_arg6)) shapeCasts_S128_S1x128 := by
  after_results_simp <;> rfl

theorem second_weight_col : StableHlo.after (hostOps2 (F := Ideal)) W (Proc.devRef .tc main_v44)
    = shapeCast S100000x1 (W (Proc.devRef .tc main_v26)) shapeCasts_S100000_S100000x1 := by
  after_results_simp <;> rfl

theorem third_agg : StableHlo.after (hostOps4 (F := Ideal)) W (Proc.devRef .tc main_v59)
    = agg128 (W (Proc.devRef .tc main_v1)) (W (Proc.devRef .tc main_v3)) (W (Proc.devRef .tc main_v25)) (W (Proc.devRef .tc main_v46)) := by
  after_results_simp <;> rfl

theorem third_bias_row : StableHlo.after (hostOps4 (F := Ideal)) W (Proc.devRef .tc main_v60)
    = shapeCast S1x128 (W (Proc.devRef .tc main_arg8)) shapeCasts_S128_S1x128 := by
  after_results_simp <;> rfl

theorem third_weight_col : StableHlo.after (hostOps4 (F := Ideal)) W (Proc.devRef .tc main_v61)
    = shapeCast S100000x1 (W (Proc.devRef .tc main_v26)) shapeCasts_S100000_S100000x1 := by
  after_results_simp <;> rfl

theorem fourth_agg : StableHlo.after (hostOps6 (F := Ideal)) W (Proc.devRef .tc main_v76)
    = agg64 (W (Proc.devRef .tc main_v1)) (W (Proc.devRef .tc main_v3)) (W (Proc.devRef .tc main_v25)) (W (Proc.devRef .tc main_v63)) := by
  after_results_simp <;> rfl

theorem fourth_bias_row : StableHlo.after (hostOps6 (F := Ideal)) W (Proc.devRef .tc main_v77)
    = shapeCast S1x64 (W (Proc.devRef .tc main_arg10)) shapeCasts_S64_S1x64 := by
  after_results_simp <;> rfl

theorem fourth_weight_col : StableHlo.after (hostOps6 (F := Ideal)) W (Proc.devRef .tc main_v78)
    = shapeCast S100000x1 (W (Proc.devRef .tc main_v26)) shapeCasts_S100000_S100000x1 := by
  after_results_simp <;> rfl

/-! ## The last stretch: the sum over each graph -/

theorem last_pool : StableHlo.after (hostOps7 (F := Ideal)) W (Proc.devRef .tc main_v82)
    = pool (W (Proc.devRef .tc main_arg2)) (W (Proc.devRef .tc main_v79)) := by
  after_results_simp <;> rfl

/-! ## The reference's stages of the same shape -/

theorem ref_agg_first (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    Cert.ReferenceIdeal.Read.val_main_v44 (F := Ideal) x0 x1 x3 x4 x5 = agg128 (Cert.ReferenceIdeal.Read.val_main_v1 (F := Ideal) x1) (Cert.ReferenceIdeal.Read.val_main_v3 (F := Ideal) x1) (Cert.ReferenceIdeal.Read.val_main_v25 (F := Ideal) x1) (Cert.ReferenceIdeal.Read.val_main_v31 (F := Ideal) x0 x3 x4 x5) := rfl

theorem ref_agg_second (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    Cert.ReferenceIdeal.Read.val_main_v66 (F := Ideal) x0 x1 x3 x4 x5 x6 x7 = agg128 (Cert.ReferenceIdeal.Read.val_main_v1 (F := Ideal) x1) (Cert.ReferenceIdeal.Read.val_main_v3 (F := Ideal) x1) (Cert.ReferenceIdeal.Read.val_main_v25 (F := Ideal) x1) (Cert.ReferenceIdeal.Read.val_main_v53 (F := Ideal) x0 x1 x3 x4 x5 x6 x7) := rfl

theorem ref_agg_third (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) :
    Cert.ReferenceIdeal.Read.val_main_v88 (F := Ideal) x0 x1 x3 x4 x5 x6 x7 x8 x9 = agg64 (Cert.ReferenceIdeal.Read.val_main_v1 (F := Ideal) x1) (Cert.ReferenceIdeal.Read.val_main_v3 (F := Ideal) x1) (Cert.ReferenceIdeal.Read.val_main_v25 (F := Ideal) x1) (Cert.ReferenceIdeal.Read.val_main_v75 (F := Ideal) x0 x1 x3 x4 x5 x6 x7 x8 x9) := rfl

theorem ref_pool (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) :
    Cert.ReferenceIdeal.Read.val_main_v98 (F := Ideal) x0 x1 x2 x3 x4 x5 x6 x7 x8 x9 x10 = pool x2 (Cert.ReferenceIdeal.Read.val_main_v95 (F := Ideal) x0 x1 x3 x4 x5 x6 x7 x8 x9 x10) := rfl

end Cert.KernelIdeal.Layer

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnForms.lean ====
/-
  A column vector on the host: its two spellings, and its spread over a matrix.

  A vector of `a` entries becomes the column `[a, 1]` either by a reshape or by a broadcast that sends the vector's axis to
  the column's first axis: the two are one array, entry (i, 0) being the vector's entry i. A column `[R, 1]` broadcast to
  `[R, N]` with its axes kept in place reads, at (r, n), the column's entry r.
-/
import Idealize.ShloMosaic.Lib.ValueIdx
import Idealize.ShloMosaic.Lib.Pipeline.Value
import proofs.«182192_j72765335929134_1_alg».proof.Proof.LibColumn

noncomputable section

namespace Cert.Lib

open Idealize.ShloMosaic Idealize.ShloMosaic.ValueIdx

variable {α : Type}

/-- A column `[R, 1]` broadcast to `[R, N]` (axes kept in place) reads, at `(r, n)`, the column's entry `r`. -/
theorem cols_of_oneCol {R N : ℕ} (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- A vector reshaped to a column and the same vector broadcast into the column along the first axis are one array. -/
theorem shapeCast_eq_broadcastInDim_col {a : ℕ} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v h = broadcastInDim ⟨2, ![a, 1]⟩ ![0] hb v := by
  funext i
  refine ((congrArg (shapeCast ⟨2, ![a, 1]⟩ v h) (eq_ix2 i)).trans (shapeCast_a_a1_apply v h (i 0) (i 1))).trans ?_
  exact (broadcastInDim_apply _ hb v i (ix1 (i 0)) (fun ax => match ax with
    | ⟨0, _⟩ => by
      show (i 0).val = if a = 1 then 0 else (i 0).val
      have h1 : (i 0).val < a := (i 0).isLt
      split
      · omega
      · rfl)).symm

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibGcnCombine.lean ====
/-
  General lemmas, program-free, for any extents (namespace Cert.Gcn): the dense layers of a graph-convolution network
  as whole-array functions on the extended reals — `product` (X·W), `affine` (X·W + b, b one [1,M] row), `combine`
  (A + H·s + b, s one [n,1] column, b one [1,M] row) and `relu` (the maximum with the zero word).
  * One block's arithmetic IS the layer of the loaded blocks, as whole arrays: `blockProduct` / `blockProductCast` (a matrix
    unit product of the narrowed block with the narrowed weights into a zero accumulator), `blockAffine` (plus a [1,M] row
    stretched by broadcastTo), `blockCombine` (a [n,1] column and a [1,M] row stretched by broadcastTo), `blockRelu`.
  * A layer's entry depends on one row: `product_at`, `affine_at`, `combine_at`, `relu_at` (entry j of the layer of a block
    of rows is entry i of the layer of the whole arrays when row j 0 of the block is row i 0 of the arrays).
  * The same layers spelled with host operations: `hostProduct` (dot_general [n,K]x[K,M]), `hostAffine` (plus a vector
    laid as a row by broadcast_in_dim dims=[1] then dims=[0,1]), `hostCombine` (a vector laid as a column by dims=[0] then
    dims=[0,1], a bias as a row), `hostRelu` (maximum with a broadcast scalar zero).
  Imports LibMatDot, LibColumn, LibColumnForms, LibAsRow, LibSlabs of the same directory.
-/
import Idealize.ShloMosaic.PureOps.Ideal.Laws
import Idealize.ShloMosaic.Lib.ValueIdx
import Idealize.ShloMosaic.Lib.Pipeline.Value
import Idealize.ShloMosaic.Lib.ValueLayout
import proofs.«182192_j72765335929134_1_alg».proof.Proof.LibMatDot
import proofs.«182192_j72765335929134_1_alg».proof.Proof.LibColumn
import proofs.«182192_j72765335929134_1_alg».proof.Proof.LibColumnForms
import proofs.«182192_j72765335929134_1_alg».proof.Proof.LibAsRow
import proofs.«182192_j72765335929134_1_alg».proof.Proof.LibSlabs

noncomputable section

namespace Cert.Gcn

open Idealize.ShloMosaic Idealize.ShloMosaic.ValueIdx Cert.Lib
open scoped BigOperators

variable {n K M : ℕ}

/-- An `[a, b]` array of extended reals. -/
abbrev Mat (a b : ℕ) : Type := FVec Ideal ⟨2, ![a, b]⟩ .f32

/-- The product X·W: entry (p, q) is the sum over k of X(p,k)·W(k,q). -/
def product (X : Mat n K) (W : Mat K M) : Mat n M := fun i => ∑ k : Fin K, X (ix2 (i 0) k) * W (ix2 k (i 1))

/-- The affine layer X·W + b, the bias one row. -/
def affine (X : Mat n K) (W : Mat K M) (B : Mat 1 M) : Mat n M := fun i => product X W i + B (ix2 (0 : Fin 1) (i 1))

/-- The combination A + H·s + b: row p of H scaled by the column's entry p, the bias one row. -/
def combine (A H : Mat n M) (S : Mat n 1) (B : Mat 1 M) : Mat n M :=
  fun i => A i + H i * S (ix2 (i 0) (0 : Fin 1)) + B (ix2 (0 : Fin 1) (i 1))

/-- The rectifier: the maximum with zero, entry by entry. -/
def relu (Y : Mat n M) : Mat n M := fun i => max (Y i) (Ideal.ofBits .f32 0x00000000#32)

theorem product_apply (X : Mat n K) (W : Mat K M) (p : Fin n) (q : Fin M) :
    product X W (ix2 p q) = ∑ k : Fin K, X (ix2 p k) * W (ix2 k q) := rfl

/-! ## One block's arithmetic -/

section Block

variable (wf : DotDims.WF ⟨2, ![n, K]⟩ ⟨2, ![K, M]⟩ ⟨2, ![n, M]⟩ [1] [0] [0] [1] [] [])
  (hbits : FTy.bf16.bits < FTy.f32.bits)

/-- The matrix unit's product of the narrowed block with the narrowed weights into a zero accumulator is the
    product: narrowing is the identity on the extended reals. -/
theorem blockProduct (x : Mat n K) (w : Mat K M) :
    matmul (matDot wf) none (truncf .bf16 x hbits) (truncf .bf16 w hbits) (constant ⟨2, ![n, M]⟩ .f32 0x00000000#32)
      = product x w := by
  funext i
  obtain ⟨p, q, rfl⟩ : ∃ (p : Fin n) (q : Fin M), i = ix2 p q := ⟨i 0, i 1, eq_ix2 i⟩
  exact (matmul_plain_zero_apply wf none (truncf .bf16 x hbits) (truncf .bf16 w hbits) p q).trans rfl

/-- The same with the block passed through a cast to its own shape first. -/
theorem blockProductCast (hc : (⟨2, ![n, K]⟩ : Shape).ShapeCasts ⟨2, ![n, K]⟩) (x : Mat n K) (w : Mat K M) :
    matmul (matDot wf) none (truncf .bf16 (shapeCast ⟨2, ![n, K]⟩ x hc) hbits) (truncf .bf16 w hbits)
        (constant ⟨2, ![n, M]⟩ .f32 0x00000000#32)
      = product x w := by
  rw [shapeCast_self]
  exact blockProduct wf hbits x w

/-- The same plus a bias row stretched over the block's rows. -/
theorem blockAffine (x : Mat n K) (w : Mat K M) (b : Mat 1 M)
    (hs : (⟨2, ![1, M]⟩ : Shape).ShapeCasts ⟨2, ![1, M]⟩) (hb : (⟨2, ![1, M]⟩ : Shape).Broadcasts ⟨2, ![n, M]⟩) :
    addf (matmul (matDot wf) none (truncf .bf16 x hbits) (truncf .bf16 w hbits) (constant ⟨2, ![n, M]⟩ .f32 0x00000000#32))
        (broadcastTo ⟨2, ![n, M]⟩ (shapeCast ⟨2, ![1, M]⟩ b hs) hb)
      = affine x w b := by
  rw [blockProduct, shapeCast_self]
  funext i
  obtain ⟨p, q, rfl⟩ : ∃ (p : Fin n) (q : Fin M), i = ix2 p q := ⟨i 0, i 1, eq_ix2 i⟩
  show product x w _ + broadcastTo ⟨2, ![n, M]⟩ b hb (ix2 p q) = _
  rw [broadcastTo_1b_ab_apply]
  rfl

end Block

/-- The block of the combination: the column stretched over the block's columns, the row over its rows. -/
theorem blockCombine (a h : Mat n M) (s : Mat n 1) (b : Mat 1 M)
    (h1 : (⟨2, ![n, M]⟩ : Shape).ShapeCasts ⟨2, ![n, M]⟩) (h2 : (⟨2, ![n, 1]⟩ : Shape).ShapeCasts ⟨2, ![n, 1]⟩)
    (h3 : (⟨2, ![n, 1]⟩ : Shape).Broadcasts ⟨2, ![n, M]⟩) (h4 : (⟨2, ![1, M]⟩ : Shape).ShapeCasts ⟨2, ![1, M]⟩)
    (h5 : (⟨2, ![1, M]⟩ : Shape).Broadcasts ⟨2, ![n, M]⟩) :
    addf (addf (shapeCast ⟨2, ![n, M]⟩ a h1)
          (mulf (shapeCast ⟨2, ![n, M]⟩ h h1) (broadcastTo ⟨2, ![n, M]⟩ (shapeCast ⟨2, ![n, 1]⟩ s h2) h3)))
        (broadcastTo ⟨2, ![n, M]⟩ (shapeCast ⟨2, ![1, M]⟩ b h4) h5)
      = combine a h s b := by
  rw [shapeCast_self, shapeCast_self, shapeCast_self, shapeCast_self]
  funext i
  obtain ⟨p, q, rfl⟩ : ∃ (p : Fin n) (q : Fin M), i = ix2 p q := ⟨i 0, i 1, eq_ix2 i⟩
  show a _ + h _ * broadcastTo ⟨2, ![n, M]⟩ s h3 (ix2 p q) + broadcastTo ⟨2, ![n, M]⟩ b h5 (ix2 p q) = _
  rw [broadcastTo_1b_ab_apply, broadcastTo_a1_ab_apply]
  rfl

/-- The maximum with a zero spread over the block is the rectifier. -/
theorem blockRelu (y : Mat n M) :
    maximumf y (broadcast ⟨2, ![n, M]⟩ (Scalar.ofBits (F := Ideal) .f32 0x00000000#32)) = relu y := rfl

/-! ## A layer's entry depends on one row of its row-indexed operands

  Entry `j` of a layer computed from a block of rows equals entry `i` of the layer computed from the whole arrays as
  soon as the block's row `j 0` is the arrays' row `i 0` and the columns agree. -/

variable {N : ℕ}

theorem product_at (X : Mat N K) (W : Mat K M) (x : Mat n K) (w : Mat K M) (j : (⟨2, ![n, M]⟩ : Shape).Idx)
    (i : (⟨2, ![N, M]⟩ : Shape).Idx) (hx : ∀ k : Fin K, x (ix2 (j 0) k) = X (ix2 (i 0) k))
    (hw : ∀ k : Fin K, w (ix2 k (j 1)) = W (ix2 k (i 1))) : product x w j = product X W i := by
  unfold product
  exact Finset.sum_congr rfl fun k _ => by rw [hx k, hw k]

theorem affine_at (X : Mat N K) (W : Mat K M) (B : Mat 1 M) (x : Mat n K) (w : Mat K M) (b : Mat 1 M)
    (j : (⟨2, ![n, M]⟩ : Shape).Idx) (i : (⟨2, ![N, M]⟩ : Shape).Idx)
    (hx : ∀ k : Fin K, x (ix2 (j 0) k) = X (ix2 (i 0) k)) (hw : ∀ k : Fin K, w (ix2 k (j 1)) = W (ix2 k (i 1)))
    (hb : b (ix2 (0 : Fin 1) (j 1)) = B (ix2 (0 : Fin 1) (i 1))) : affine x w b j = affine X W B i := by
  unfold affine
  rw [product_at X W x w j i hx hw, hb]

theorem combine_at (A H : Mat N M) (S : Mat N 1) (B : Mat 1 M) (a h : Mat n M) (s : Mat n 1) (b : Mat 1 M)
    (j : (⟨2, ![n, M]⟩ : Shape).Idx) (i : (⟨2, ![N, M]⟩ : Shape).Idx) (ha : a j = A i) (hh : h j = H i)
    (hs : s (ix2 (j 0) (0 : Fin 1)) = S (ix2 (i 0) (0 : Fin 1)))
    (hb : b (ix2 (0 : Fin 1) (j 1)) = B (ix2 (0 : Fin 1) (i 1))) : combine a h s b j = combine A H S B i := by
  unfold combine
  rw [ha, hh, hs, hb]

theorem relu_at (Y : Mat N M) (y : Mat n M) (j : (⟨2, ![n, M]⟩ : Shape).Idx) (i : (⟨2, ![N, M]⟩ : Shape).Idx)
    (hy : y j = Y i) : relu y j = relu Y i := by
  unfold relu
  rw [hy]

/-! ## The same layers spelled with whole-array operations -/

/-- A general product contracting the left operand's columns with the right operand's rows is the product. -/
theorem hostProduct (wf : DotDims.WF ⟨2, ![n, K]⟩ ⟨2, ![K, M]⟩ ⟨2, ![n, M]⟩ [1] [0] [0] [1] [] [])
    (prec : Option ContractPrecision) (l : Mat n K) (r : Mat K M) :
    Host.dotGeneral (matDot wf) prec l r = product l r := by
  funext i
  obtain ⟨p, q, rfl⟩ : ∃ (p : Fin n) (q : Fin M), i = ix2 p q := ⟨i 0, i 1, eq_ix2 i⟩
  exact (dotGeneral_plain_apply wf prec _ l r p q).trans rfl

/-- The product plus a bias vector laid out as one row and repeated over the rows is the affine layer. -/
theorem hostAffine (wf : DotDims.WF ⟨2, ![n, K]⟩ ⟨2, ![K, M]⟩ ⟨2, ![n, M]⟩ [1] [0] [0] [1] [] [])
    (prec : Option ContractPrecision) (X : Mat n K) (W : Mat K M) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) :
    addf (Host.dotGeneral (matDot wf) prec X W)
        (broadcastInDim ⟨2, ![n, M]⟩ ![0, 1] h2 (broadcastInDim ⟨2, ![1, M]⟩ ![1] h1 b))
      = affine X W (asRow b) := by
  rw [hostProduct, broadcastInDim_eq_asRow]
  funext i
  obtain ⟨p, q, rfl⟩ : ∃ (p : Fin n) (q : Fin M), i = ix2 p q := ⟨i 0, i 1, eq_ix2 i⟩
  show product X W _ + broadcastInDim ⟨2, ![n, M]⟩ ![0, 1] h2 (asRow b) (ix2 p q) = _
  rw [rows_of_oneRow]
  rfl

/-- Adding the rows of H scaled by a vector laid out as one column, and a bias vector laid out as one row, is the
    combination. -/
theorem hostCombine (A H : Mat n M) (s : FVec Ideal ⟨1, ![n]⟩ .f32) (b : FVec Ideal ⟨1, ![M]⟩ .f32)
    (hs1 : (⟨1, ![n]⟩ : Shape).BroadcastsInDim ⟨2, ![n, 1]⟩ (![0] : Fin 1 → Fin 2))
    (hs2 : (⟨2, ![n, 1]⟩ : Shape).BroadcastsInDim ⟨2, ![n, M]⟩ (![0, 1] : Fin 2 → Fin 2))
    (hb1 : (⟨1, ![M]⟩ : Shape).BroadcastsInDim ⟨2, ![1, M]⟩ (![1] : Fin 1 → Fin 2))
    (hb2 : (⟨2, ![1, M]⟩ : Shape).BroadcastsInDim ⟨2, ![n, M]⟩ (![0, 1] : Fin 2 → Fin 2)) :
    addf (addf A (mulf H (broadcastInDim ⟨2, ![n, M]⟩ ![0, 1] hs2 (broadcastInDim ⟨2, ![n, 1]⟩ ![0] hs1 s))))
        (broadcastInDim ⟨2, ![n, M]⟩ ![0, 1] hb2 (broadcastInDim ⟨2, ![1, M]⟩ ![1] hb1 b))
      = combine A H (broadcastInDim ⟨2, ![n, 1]⟩ ![0] hs1 s) (asRow b) := by
  rw [broadcastInDim_eq_asRow]
  funext i
  obtain ⟨p, q, rfl⟩ : ∃ (p : Fin n) (q : Fin M), i = ix2 p q := ⟨i 0, i 1, eq_ix2 i⟩
  show A _ + H _ * broadcastInDim ⟨2, ![n, M]⟩ ![0, 1] hs2 (broadcastInDim ⟨2, ![n, 1]⟩ ![0] hs1 s) (ix2 p q)
      + broadcastInDim ⟨2, ![n, M]⟩ ![0, 1] hb2 (asRow b) (ix2 p q) = _
  rw [rows_of_oneRow, cols_of_oneCol]
  rfl

/-- The maximum with a zero repeated over the array is the rectifier. -/
theorem hostRelu (Y : Mat n M) (h : (⟨0, ![]⟩ : Shape).BroadcastsInDim ⟨2, ![n, M]⟩ (![] : Fin 0 → Fin 2)) :
    maximumf Y (broadcastInDim ⟨2, ![n, M]⟩ ![] h (constant ⟨0, ![]⟩ .f32 0x00000000#32)) = relu Y := rfl

end Cert.Gcn

end
-- ==== Proof.RefLayers.lean ====
/-
  The reference's dense stages as layers: its embedding is the affine layer of the inputs, each projection the product of
  the previous stage with the layer's weights, and each convolution's last step the combination — the neighbourhood sum
  plus the projected features scaled by the self-loop weights plus the bias — rectified after the first two layers.
-/
import proofs.«182192_j72765335929134_1_alg».proof.Proof.Gen.ReferenceIdeal.Read
import proofs.«182192_j72765335929134_1_alg».proof.Proof.LibGcnCombine

set_option maxRecDepth 16384

noncomputable section

namespace Cert.ReferenceIdeal.Layer

open Cert.ReferenceIdeal Cert.ReferenceIdeal.Gen Cert.ReferenceIdeal.Read Idealize.ShloMosaic Idealize.ShloMosaic.TcCoe Cert.Gcn Cert.Lib

variable (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))

/-- The embedding: x·W_emb + b_emb. -/
theorem embed : val_main_v30 (F := Ideal) x0 x3 x4 = affine x0 x3 (asRow x4) :=
  hostAffine dot_S100000x128_S128x128_S100000x128_1_0_0_1_n_n.wf none x0 x3 x4 bcast_S128_S1x128_1 bcast_S1x128_S100000x128_0_1

/-- The first projection. -/
theorem project_first : val_main_v31 (F := Ideal) x0 x3 x4 x5 = product (val_main_v30 (F := Ideal) x0 x3 x4) x5 :=
  hostProduct dot_S100000x128_S128x128_S100000x128_1_0_0_1_n_n.wf none _ x5

/-- The first convolution's output. -/
theorem pre_conv_first : val_main_v51 (F := Ideal) x0 x1 x3 x4 x5 x6
    = combine (val_main_v44 (F := Ideal) x0 x1 x3 x4 x5) (val_main_v31 (F := Ideal) x0 x3 x4 x5)
        (broadcastInDim S100000x1 ![0] bcast_S100000_S100000x1_0 (val_main_v26 (F := Ideal) x1)) (asRow x6) :=
  hostCombine (val_main_v44 (F := Ideal) x0 x1 x3 x4 x5) (val_main_v31 (F := Ideal) x0 x3 x4 x5)
    (val_main_v26 (F := Ideal) x1) x6 bcast_S100000_S100000x1_0 bcast_S100000x1_S100000x128_0_1 bcast_S128_S1x128_1
    bcast_S1x128_S100000x128_0_1

theorem conv_first : val_main_v52 (F := Ideal) x0 x1 x3 x4 x5 x6
    = relu (combine (val_main_v44 (F := Ideal) x0 x1 x3 x4 x5) (val_main_v31 (F := Ideal) x0 x3 x4 x5)
        (broadcastInDim S100000x1 ![0] bcast_S100000_S100000x1_0 (val_main_v26 (F := Ideal) x1)) (asRow x6)) := by
  unfold val_main_v52 val_main_call0_v0 val_main_call0_cst
  rw [pre_conv_first]
  exact hostRelu _ bcast_S_S100000x128

/-- The second projection. -/
theorem project_second : val_main_v53 (F := Ideal) x0 x1 x3 x4 x5 x6 x7
    = product (val_main_v52 (F := Ideal) x0 x1 x3 x4 x5 x6) x7 :=
  hostProduct dot_S100000x128_S128x128_S100000x128_1_0_0_1_n_n.wf none _ x7

/-- The second convolution's output. -/
theorem pre_conv_second : val_main_v73 (F := Ideal) x0 x1 x3 x4 x5 x6 x7 x8
    = combine (val_main_v66 (F := Ideal) x0 x1 x3 x4 x5 x6 x7) (val_main_v53 (F := Ideal) x0 x1 x3 x4 x5 x6 x7)
        (broadcastInDim S100000x1 ![0] bcast_S100000_S100000x1_0 (val_main_v26 (F := Ideal) x1)) (asRow x8) :=
  hostCombine (val_main_v66 (F := Ideal) x0 x1 x3 x4 x5 x6 x7) (val_main_v53 (F := Ideal) x0 x1 x3 x4 x5 x6 x7)
    (val_main_v26 (F := Ideal) x1) x8 bcast_S100000_S100000x1_0 bcast_S100000x1_S100000x128_0_1 bcast_S128_S1x128_1
    bcast_S1x128_S100000x128_0_1

theorem conv_second : val_main_v74 (F := Ideal) x0 x1 x3 x4 x5 x6 x7 x8
    = relu (combine (val_main_v66 (F := Ideal) x0 x1 x3 x4 x5 x6 x7) (val_main_v53 (F := Ideal) x0 x1 x3 x4 x5 x6 x7)
        (broadcastInDim S100000x1 ![0] bcast_S100000_S100000x1_0 (val_main_v26 (F := Ideal) x1)) (asRow x8)) := by
  unfold val_main_v74 val_main_call1_v0 val_main_call1_cst
  rw [pre_conv_second]
  exact hostRelu _ bcast_S_S100000x128

/-- The third projection, onto 64 columns. -/
theorem project_third : val_main_v75 (F := Ideal) x0 x1 x3 x4 x5 x6 x7 x8 x9
    = product (val_main_v74 (F := Ideal) x0 x1 x3 x4 x5 x6 x7 x8) x9 :=
  hostProduct dot_S100000x128_S128x64_S100000x64_1_0_0_1_n_n.wf none _ x9

/-- The third convolution's output: no rectifier. -/
theorem conv_third : val_main_v95 (F := Ideal) x0 x1 x3 x4 x5 x6 x7 x8 x9 x10
    = combine (val_main_v88 (F := Ideal) x0 x1 x3 x4 x5 x6 x7 x8 x9) (val_main_v75 (F := Ideal) x0 x1 x3 x4 x5 x6 x7 x8 x9)
        (broadcastInDim S100000x1 ![0] bcast_S100000_S100000x1_0 (val_main_v26 (F := Ideal) x1)) (asRow x10) :=
  hostCombine (val_main_v88 (F := Ideal) x0 x1 x3 x4 x5 x6 x7 x8 x9) (val_main_v75 (F := Ideal) x0 x1 x3 x4 x5 x6 x7 x8 x9)
    (val_main_v26 (F := Ideal) x1) x10 bcast_S100000_S100000x1_0 bcast_S100000x1_S100000x64_0_1 bcast_S64_S1x64_1
    bcast_S1x64_S100000x64_0_1

end Cert.ReferenceIdeal.Layer

end
-- ==== Proof.Region0.lean ====
/-
  The first pallas call (the embedding layer): over 20 blocks of 5000 rows, each block of the output is the block of
  x times the whole weight matrix plus the bias row. The blocks tile the output's rows, so the array it leaves is the
  affine layer x·W + b of the arrays it was entered with.
-/
import proofs.«182192_j72765335929134_1_alg».proof.Proof.Gen.KernelIdeal.Frame
import proofs.«182192_j72765335929134_1_alg».proof.Proof.LibGcnCombine

set_option maxRecDepth 16384

noncomputable section

namespace Cert.KernelIdeal.Layer

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The block's arithmetic is the affine layer of the loaded blocks. -/
theorem pay0 (x0 : Vec Ideal S5000x128 .f32) (x1 : Vec Ideal S128x128 .f32) (x2 : Vec Ideal S1x128 .f32) :
    k0_pay1 x0 x1 x2 = Cert.Gcn.affine x0 x1 x2 :=
  Cert.Gcn.blockAffine dot_S5000x128_S128x128_S5000x128_1_0_0_1_n_n.wf bitsLt_bf16_f32 x0 x1 x2 shapeCasts_S1x128_S1x128
    broadcasts_S1x128_S5000x128

/-- Where each window's block sits at grid point `t`: the row-blocked windows at block row `t`, the others at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the affine layer of the arrays as the region finds them. -/
theorem flushed0 (c : Dev nD) (t : Fin cfg0.N) :
    (dat0 V c).flushed 3 t = ((cfg0.win 3).blk t).view.read (Elt Ideal)
      (Cert.Gcn.affine (V c main_arg0) (V c main_arg3) (V c main_v27)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2,
    View.ld_unit_zero (S := S1x128) origin2]
  rw [pay0]
  obtain ⟨e00, e01, e10, e11, e20, e21, e30, e31⟩ := where0 t
  funext j
  show Cert.Gcn.affine (iblk0 V c 0 t) (iblk0 V c 1 t) (iblk0 V c 2 t) j
    = Cert.Gcn.affine (V c main_arg0) (V c main_arg3) (V c main_v27) (((cfg0.win 3).blk t).view.emb j)
  refine Cert.Gcn.affine_at (V c main_arg0) (V c main_arg3) (V c main_v27) (iblk0 V c 0 t) (iblk0 V c 1 t) (iblk0 V c 2 t) j
    (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 3).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v27 (((cfg0.win 2).blk t).view.emb (ix2 (0 : Fin 1) (j 1))) = V c main_v27 (ix2 (0 : Fin 1) ((((cfg0.win 3).blk t).view.emb j) 1))
    refine congrArg (V c main_v27) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v28).slice (win0_3.rect t)).set ↔ _
  rw [View.set_slice_whole, Rect.mem_set_unit]
  exact Iff.rfl

/-- Every row of the output lies in the block of the point numbered by the row's quotient by 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, e30, e31⟩ := where0 t
  have ht : (t : ℕ) = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array the region leaves: the affine layer of the arrays it was entered with. -/
theorem final0 (c : Dev nD) :
    (dat0 V c).arrAt 3 cfg0.N = Cert.Gcn.affine (V c main_arg0) (V c main_arg3) (V c main_v27) :=
  (dat0 V c).arrAt_eq_of_cover 3 _ (fun t _ => flushed0 V c t) cover0

end Cert.KernelIdeal.Layer

end
-- ==== Proof.Region1.lean ====
/-
  The second pallas call (the first convolution's projection): over 20 blocks of 5000 rows, each block of the output is the block of the input rows times the whole weight
  matrix. The blocks tile the output's rows, so the array the call leaves is the product of the arrays it was entered with.
-/
import proofs.«182192_j72765335929134_1_alg».proof.Proof.Gen.KernelIdeal.Frame
import proofs.«182192_j72765335929134_1_alg».proof.Proof.LibGcnCombine
import proofs.«182192_j72765335929134_1_alg».proof.Proof.Region0
set_option maxRecDepth 16384

noncomputable section

namespace Cert.KernelIdeal.Layer

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block's arithmetic is the product of the loaded blocks. -/
theorem pay1 (x0 : Vec Ideal S5000x128 .f32) (x1 : Vec Ideal S128x128 .f32) :
    k1_pay1 x0 x1 = Cert.Gcn.product x0 x1 :=
  Cert.Gcn.blockProductCast dot_S5000x128_S128x128_S5000x128_1_0_0_1_n_n.wf bitsLt_bf16_f32 shapeCasts_S5000x128_S5000x128 x0 x1

/-- Where each window's block sits at grid point `t`: the row-blocked windows at block row `t`, the weights at the origin. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays as the region finds them. -/
theorem flushed1 (c : Dev nD) (t : Fin cfg1.N) :
    (dat1 V c).flushed 2 t = ((cfg1.win 2).blk t).view.read (Elt Ideal)
      (Cert.Gcn.product (V c main_v28) (V c main_arg5)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128x128) origin2]
  rw [pay1]
  obtain ⟨e00, e01, e10, e11, e20, e21⟩ := where1 t
  funext j
  show Cert.Gcn.product (iblk1 V c 0 t) (iblk1 V c 1 t) j
    = Cert.Gcn.product (V c main_v28) (V c main_arg5) (((cfg1.win 2).blk t).view.emb j)
  refine Cert.Gcn.product_at (V c main_v28) (V c main_arg5) (iblk1 V c 0 t) (iblk1 V c 1 t) j
    (((cfg1.win 2).blk t).view.emb j) (fun k => ?_) (fun k => ?_)
  · show V c main_v28 (((cfg1.win 0).blk t).view.emb (ix2 (j 0) k)) = V c main_v28 (ix2 ((((cfg1.win 2).blk t).view.emb j) 0) k)
    refine congrArg (V c main_v28) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg5 (((cfg1.win 1).blk t).view.emb (ix2 k (j 1))) = V c main_arg5 (ix2 k ((((cfg1.win 2).blk t).view.emb j) 1))
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v29).slice (win1_2.rect t)).set ↔ _
  rw [View.set_slice_whole, Rect.mem_set_unit]
  exact Iff.rfl

/-- Every row of the output lies in the block of the point numbered by the row's quotient by 5000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, e20, e21⟩ := where1 t
  have ht : (t : ℕ) = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the region leaves: the product of the arrays it was entered with. -/
theorem final1 (c : Dev nD) :
    (dat1 V c).arrAt 2 cfg1.N = Cert.Gcn.product (V c main_v28) (V c main_arg5) :=
  (dat1 V c).arrAt_eq_of_cover 2 _ (fun t _ => flushed1 V c t) cover1

end Cert.KernelIdeal.Layer

end
-- ==== Proof.Region2.lean ====
/-
  The third pallas call (the first convolution's combination): over 20 blocks of 5000 rows, each block of the output is the block of the aggregated messages plus the block
  of projected features scaled row by row by the self-loop weights plus the bias row, rectified. The blocks tile the
  output's rows, so the array the call leaves is that combination of the arrays it was entered with.
-/
import proofs.«182192_j72765335929134_1_alg».proof.Proof.Gen.KernelIdeal.Frame
import proofs.«182192_j72765335929134_1_alg».proof.Proof.LibGcnCombine
import proofs.«182192_j72765335929134_1_alg».proof.Proof.Region0
set_option maxRecDepth 16384

noncomputable section

namespace Cert.KernelIdeal.Layer

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block's arithmetic is the combination, rectified, of the loaded blocks. -/
theorem pay2 (x0 : Vec Ideal S5000x128 .f32) (x1 : Vec Ideal S5000x128 .f32) (x2 : Vec Ideal S5000x1 .f32)
    (x3 : Vec Ideal S1x128 .f32) : k2_pay1 x0 x1 x2 x3 = Cert.Gcn.relu (Cert.Gcn.combine x0 x1 x2 x3) := by
  show maximumf (addf (addf (shapeCast S5000x128 x0 shapeCasts_S5000x128_S5000x128)
        (mulf (shapeCast S5000x128 x1 shapeCasts_S5000x128_S5000x128)
          (broadcastTo S5000x128 (shapeCast S5000x1 x2 shapeCasts_S5000x1_S5000x1) broadcasts_S5000x1_S5000x128)))
      (broadcastTo S5000x128 (shapeCast S1x128 x3 shapeCasts_S1x128_S1x128) broadcasts_S1x128_S5000x128))
    (broadcast S5000x128 (Scalar.ofBits (F := Ideal) .f32 0x00000000#32)) = _
  rw [Cert.Gcn.blockCombine]
  rfl

/-- Where each window's block sits at grid point `t`: the row-blocked windows at block row `t`, the bias row at the origin. -/
theorem where2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the combination of the arrays as the region finds them. -/
theorem flushed2 (c : Dev nD) (t : Fin cfg2.N) :
    (dat2 V c).flushed 4 t = ((cfg2.win 4).blk t).view.read (Elt Ideal)
      (Cert.Gcn.relu (Cert.Gcn.combine (V c main_v42) (V c main_v29) (V c main_v44) (V c main_v43))) := by
  show (cfg2.win 4).cut (grid2.coords t) ((dat2 V c).after 4 t) = _
  rw [after2_4]
  unfold out2_4
  rw [View.canon_unit_zero origin2]
  simp only [View.ld_unit_zero (S := S5000x128) origin2, View.ld_unit_zero (S := S5000x1) origin2,
    View.ld_unit_zero (S := S1x128) origin2]
  rw [pay2]
  obtain ⟨e00, e01, e10, e11, e20, e21, e30, e31, e40, e41⟩ := where2 t
  funext j
  show Cert.Gcn.relu (Cert.Gcn.combine (iblk2 V c 0 t) (iblk2 V c 1 t) (iblk2 V c 2 t) (iblk2 V c 3 t)) j
    = Cert.Gcn.relu (Cert.Gcn.combine (V c main_v42) (V c main_v29) (V c main_v44) (V c main_v43)) (((cfg2.win 4).blk t).view.emb j)
  refine Cert.Gcn.relu_at _ _ j (((cfg2.win 4).blk t).view.emb j) ?_
  refine Cert.Gcn.combine_at (V c main_v42) (V c main_v29) (V c main_v44) (V c main_v43) (iblk2 V c 0 t) (iblk2 V c 1 t)
    (iblk2 V c 2 t) (iblk2 V c 3 t) j (((cfg2.win 4).blk t).view.emb j) ?_ ?_ ?_ ?_
  · show V c main_v42 (((cfg2.win 0).blk t).view.emb j) = V c main_v42 (((cfg2.win 4).blk t).view.emb j)
    refine congrArg (V c main_v42) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * (j 1).val = win2_4.index t (1 : Fin 2) * 128 + 1 * (j 1).val; omega
  · show V c main_v29 (((cfg2.win 1).blk t).view.emb j) = V c main_v29 (((cfg2.win 4).blk t).view.emb j)
    refine congrArg (V c main_v29) (funext fun a => Fin.ext ?_)
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * (j 1).val = win2_4.index t (1 : Fin 2) * 128 + 1 * (j 1).val; omega
  · show V c main_v44 (((cfg2.win 2).blk t).view.emb (ix2 (j 0) (0 : Fin 1))) = V c main_v44 (ix2 ((((cfg2.win 4).blk t).view.emb j) 0) (0 : Fin 1))
    refine congrArg (V c main_v44) (funext fun a => Fin.ext ?_)
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 1 + 1 * 0 = 0; omega
  · show V c main_v43 (((cfg2.win 3).blk t).view.emb (ix2 (0 : Fin 1) (j 1))) = V c main_v43 (ix2 (0 : Fin 1) ((((cfg2.win 4).blk t).view.emb j) 1))
    refine congrArg (V c main_v43) (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega

/-- An index of the output array is in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v45).slice (win2_4.rect t)).set ↔ _
  rw [View.set_slice_whole, Rect.mem_set_unit]
  exact Iff.rfl

/-- Every row of the output lies in the block of the point numbered by the row's quotient by 5000. -/
theorem cover2 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  let t : Fin cfg2.N := ⟨(i 0).val / 5000, by omega⟩
  obtain ⟨-, -, -, -, -, -, -, -, e40, e41⟩ := where2 t
  have ht : (t : ℕ) = (i 0).val / 5000 := rfl
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The array the region leaves: the combination of the arrays it was entered with. -/
theorem final2 (c : Dev nD) :
    (dat2 V c).arrAt 4 cfg2.N = Cert.Gcn.relu (Cert.Gcn.combine (V c main_v42) (V c main_v29) (V c main_v44) (V c main_v43)) :=
  (dat2 V c).arrAt_eq_of_cover 4 _ (fun t _ => flushed2 V c t) cover2

end Cert.KernelIdeal.Layer

end
-- ==== Proof.Region3.lean ====
/-
  The fourth pallas call (the second convolution's projection): over 20 blocks of 5000 rows, each block of the output is the block of the input rows times the whole weight
  matrix. The blocks tile the output's rows, so the array the call leaves is the product of the arrays it was entered with.
-/
import proofs.«182192_j72765335929134_1_alg».proof.Proof.Gen.KernelIdeal.Frame
import proofs.«182192_j72765335929134_1_alg».proof.Proof.LibGcnCombine
import proofs.«182192_j72765335929134_1_alg».proof.Proof.Region0
set_option maxRecDepth 16384

noncomputable section

namespace Cert.KernelIdeal.Layer

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block's arithmetic is the product of the loaded blocks. -/
theorem pay3 (x0 : Vec Ideal S5000x128 .f32) (x1 : Vec Ideal S128x128 .f32) :
    k3_pay1 x0 x1 = Cert.Gcn.product x0 x1 :=
  Cert.Gcn.blockProductCast dot_S5000x128_S128x128_S5000x128_1_0_0_1_n_n.wf bitsLt_bf16_f32 shapeCasts_S5000x128_S5000x128 x0 x1

/-- Where each window's block sits at grid point `t`: the row-blocked windows at block row `t`, the weights at the origin. -/
theorem where3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays as the region finds them. -/
theorem flushed3 (c : Dev nD) (t : Fin cfg3.N) :
    (dat3 V c).flushed 2 t = ((cfg3.win 2).blk t).view.read (Elt Ideal)
      (Cert.Gcn.product (V c main_v45) (V c main_arg7)) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S128x128) origin2]
  rw [pay3]
  obtain ⟨e00, e01, e10, e11, e20, e21⟩ := where3 t
  funext j
  show Cert.Gcn.product (iblk3 V c 0 t) (iblk3 V c 1 t) j
    = Cert.Gcn.product (V c main_v45) (V c main_arg7) (((cfg3.win 2).blk t).view.emb j)
  refine Cert.Gcn.product_at (V c main_v45) (V c main_arg7) (iblk3 V c 0 t) (iblk3 V c 1 t) j
    (((cfg3.win 2).blk t).view.emb j) (fun k => ?_) (fun k => ?_)
  · show V c main_v45 (((cfg3.win 0).blk t).view.emb (ix2 (j 0) k)) = V c main_v45 (ix2 ((((cfg3.win 2).blk t).view.emb j) 0) k)
    refine congrArg (V c main_v45) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · show V c main_arg7 (((cfg3.win 1).blk t).view.emb (ix2 k (j 1))) = V c main_arg7 (ix2 k ((((cfg3.win 2).blk t).view.emb j) 1))
    refine congrArg (V c main_arg7) (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v46).slice (win3_2.rect t)).set ↔ _
  rw [View.set_slice_whole, Rect.mem_set_unit]
  exact Iff.rfl

/-- Every row of the output lies in the block of the point numbered by the row's quotient by 5000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by omega⟩
  obtain ⟨-, -, -, -, e20, e21⟩ := where3 t
  have ht : (t : ℕ) = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array the region leaves: the product of the arrays it was entered with. -/
theorem final3 (c : Dev nD) :
    (dat3 V c).arrAt 2 cfg3.N = Cert.Gcn.product (V c main_v45) (V c main_arg7) :=
  (dat3 V c).arrAt_eq_of_cover 2 _ (fun t _ => flushed3 V c t) cover3

end Cert.KernelIdeal.Layer

end
-- ==== Proof.Region4.lean ====
/-
  The fifth pallas call (the second convolution's combination): over 20 blocks of 5000 rows, each block of the output is the block of the aggregated messages plus the block
  of projected features scaled row by row by the self-loop weights plus the bias row, rectified. The blocks tile the
  output's rows, so the array the call leaves is that combination of the arrays it was entered with.
-/
import proofs.«182192_j72765335929134_1_alg».proof.Proof.Gen.KernelIdeal.Frame
import proofs.«182192_j72765335929134_1_alg».proof.Proof.LibGcnCombine
import proofs.«182192_j72765335929134_1_alg».proof.Proof.Region0
set_option maxRecDepth 16384

noncomputable section

namespace Cert.KernelIdeal.Layer

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block's arithmetic is the combination, rectified, of the loaded blocks. -/
theorem pay4 (x0 : Vec Ideal S5000x128 .f32) (x1 : Vec Ideal S5000x128 .f32) (x2 : Vec Ideal S5000x1 .f32)
    (x3 : Vec Ideal S1x128 .f32) : k4_pay1 x0 x1 x2 x3 = Cert.Gcn.relu (Cert.Gcn.combine x0 x1 x2 x3) := by
  show maximumf (addf (addf (shapeCast S5000x128 x0 shapeCasts_S5000x128_S5000x128)
        (mulf (shapeCast S5000x128 x1 shapeCasts_S5000x128_S5000x128)
          (broadcastTo S5000x128 (shapeCast S5000x1 x2 shapeCasts_S5000x1_S5000x1) broadcasts_S5000x1_S5000x128)))
      (broadcastTo S5000x128 (shapeCast S1x128 x3 shapeCasts_S1x128_S1x128) broadcasts_S1x128_S5000x128))
    (broadcast S5000x128 (Scalar.ofBits (F := Ideal) .f32 0x00000000#32)) = _
  rw [Cert.Gcn.blockCombine]
  rfl

/-- Where each window's block sits at grid point `t`: the row-blocked windows at block row `t`, the bias row at the origin. -/
theorem where4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is block `t` of the combination of the arrays as the region finds them. -/
theorem flushed4 (c : Dev nD) (t : Fin cfg4.N) :
    (dat4 V c).flushed 4 t = ((cfg4.win 4).blk t).view.read (Elt Ideal)
      (Cert.Gcn.relu (Cert.Gcn.combine (V c main_v59) (V c main_v46) (V c main_v61) (V c main_v60))) := by
  show (cfg4.win 4).cut (grid4.coords t) ((dat4 V c).after 4 t) = _
  rw [after4_4]
  unfold out4_4
  rw [View.canon_unit_zero origin2]
  simp only [View.ld_unit_zero (S := S5000x128) origin2, View.ld_unit_zero (S := S5000x1) origin2,
    View.ld_unit_zero (S := S1x128) origin2]
  rw [pay4]
  obtain ⟨e00, e01, e10, e11, e20, e21, e30, e31, e40, e41⟩ := where4 t
  funext j
  show Cert.Gcn.relu (Cert.Gcn.combine (iblk4 V c 0 t) (iblk4 V c 1 t) (iblk4 V c 2 t) (iblk4 V c 3 t)) j
    = Cert.Gcn.relu (Cert.Gcn.combine (V c main_v59) (V c main_v46) (V c main_v61) (V c main_v60)) (((cfg4.win 4).blk t).view.emb j)
  refine Cert.Gcn.relu_at _ _ j (((cfg4.win 4).blk t).view.emb j) ?_
  refine Cert.Gcn.combine_at (V c main_v59) (V c main_v46) (V c main_v61) (V c main_v60) (iblk4 V c 0 t) (iblk4 V c 1 t)
    (iblk4 V c 2 t) (iblk4 V c 3 t) j (((cfg4.win 4).blk t).view.emb j) ?_ ?_ ?_ ?_
  · show V c main_v59 (((cfg4.win 0).blk t).view.emb j) = V c main_v59 (((cfg4.win 4).blk t).view.emb j)
    refine congrArg (V c main_v59) (funext fun a => Fin.ext ?_)
    match a with
    | ⟨0, _⟩ => show win4_0.index t (0 : Fin 2) * 5000 + 1 * (j 0).val = win4_4.index t (0 : Fin 2) * 5000 + 1 * (j 0).val; omega
    | ⟨1, _⟩ => show win4_0.index t (1 : Fin 2) * 128 + 1 * (j 1).val = win4_4.index t (1 : Fin 2) * 128 + 1 * (j 1).val; omega
  · show V c main_v46 (((cfg4.win 1).blk t).view.emb j) = V c main_v46 (((cfg4.win 4).blk t).view.emb j)
    refine congrArg (V c main_v46) (funext fun a => Fin.ext ?_)
    match a with
    | ⟨0, _⟩ => show win4_1.index t (0 : Fin 2) * 5000 + 1 * (j 0).val = win4_4.index t (0 : Fin 2) * 5000 + 1 * (j 0).val; omega
    | ⟨1, _⟩ => show win4_1.index t (1 : Fin 2) * 128 + 1 * (j 1).val = win4_4.index t (1 : Fin 2) * 128 + 1 * (j 1).val; omega
  · show V c main_v61 (((cfg4.win 2).blk t).view.emb (ix2 (j 0) (0 : Fin 1))) = V c main_v61 (ix2 ((((cfg4.win 4).blk t).view.emb j) 0) (0 : Fin 1))
    refine congrArg (V c main_v61) (funext fun a => Fin.ext ?_)
    match a with
    | ⟨0, _⟩ => show win4_2.index t (0 : Fin 2) * 5000 + 1 * (j 0).val = win4_4.index t (0 : Fin 2) * 5000 + 1 * (j 0).val; omega
    | ⟨1, _⟩ => show win4_2.index t (1 : Fin 2) * 1 + 1 * 0 = 0; omega
  · show V c main_v60 (((cfg4.win 3).blk t).view.emb (ix2 (0 : Fin 1) (j 1))) = V c main_v60 (ix2 (0 : Fin 1) ((((cfg4.win 4).blk t).view.emb j) 1))
    refine congrArg (V c main_v60) (funext fun a => Fin.ext ?_)
    match a with
    | ⟨0, _⟩ => show win4_3.index t (0 : Fin 2) * 1 + 1 * 0 = 0; omega
    | ⟨1, _⟩ => show win4_3.index t (1 : Fin 2) * 128 + 1 * (j 1).val = win4_4.index t (1 : Fin 2) * 128 + 1 * (j 1).val; omega

/-- An index of the output array is in point `t`'s block iff each coordinate is in the block's range on its axis. -/
theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v62).slice (win4_4.rect t)).set ↔ _
  rw [View.set_slice_whole, Rect.mem_set_unit]
  exact Iff.rfl

/-- Every row of the output lies in the block of the point numbered by the row's quotient by 5000. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  let t : Fin cfg4.N := ⟨(i 0).val / 5000, by omega⟩
  obtain ⟨-, -, -, -, -, -, -, -, e40, e41⟩ := where4 t
  have ht : (t : ℕ) = (i 0).val / 5000 := rfl
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The array the region leaves: the combination of the arrays it was entered with. -/
theorem final4 (c : Dev nD) :
    (dat4 V c).arrAt 4 cfg4.N = Cert.Gcn.relu (Cert.Gcn.combine (V c main_v59) (V c main_v46) (V c main_v61) (V c main_v60)) :=
  (dat4 V c).arrAt_eq_of_cover 4 _ (fun t _ => flushed4 V c t) cover4

end Cert.KernelIdeal.Layer

end
-- ==== Proof.Region5.lean ====
/-
  The sixth pallas call (the third convolution's projection): over 20 blocks of 5000 rows, each block of the output is the block of the input rows times the whole weight
  matrix. The blocks tile the output's rows, so the array the call leaves is the product of the arrays it was entered with.
-/
import proofs.«182192_j72765335929134_1_alg».proof.Proof.Gen.KernelIdeal.Frame
import proofs.«182192_j72765335929134_1_alg».proof.Proof.LibGcnCombine
import proofs.«182192_j72765335929134_1_alg».proof.Proof.Region0
set_option maxRecDepth 16384

noncomputable section

namespace Cert.KernelIdeal.Layer

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block's arithmetic is the product of the loaded blocks. -/
theorem pay5 (x0 : Vec Ideal S5000x128 .f32) (x1 : Vec Ideal S128x64 .f32) :
    k5_pay1 x0 x1 = Cert.Gcn.product x0 x1 :=
  Cert.Gcn.blockProductCast dot_S5000x128_S128x64_S5000x64_1_0_0_1_n_n.wf bitsLt_bf16_f32 shapeCasts_S5000x128_S5000x128 x0 x1

/-- Where each window's block sits at grid point `t`: the row-blocked windows at block row `t`, the weights at the origin. -/
theorem where5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the product of the arrays as the region finds them. -/
theorem flushed5 (c : Dev nD) (t : Fin cfg5.N) :
    (dat5 V c).flushed 2 t = ((cfg5.win 2).blk t).view.read (Elt Ideal)
      (Cert.Gcn.product (V c main_v62) (V c main_arg9)) := by
  show (cfg5.win 2).cut (grid5.coords t) ((dat5 V c).after 2 t) = _
  rw [after5_2]
  unfold out5_2
  rw [View.canon_unit_zero origin2]
  simp only [View.ld_unit_zero (S := S5000x128) origin2, View.ld_unit_zero (S := S128x64) origin2]
  rw [pay5]
  obtain ⟨e00, e01, e10, e11, e20, e21⟩ := where5 t
  funext j
  show Cert.Gcn.product (iblk5 V c 0 t) (iblk5 V c 1 t) j
    = Cert.Gcn.product (V c main_v62) (V c main_arg9) (((cfg5.win 2).blk t).view.emb j)
  refine Cert.Gcn.product_at (V c main_v62) (V c main_arg9) (iblk5 V c 0 t) (iblk5 V c 1 t) j
    (((cfg5.win 2).blk t).view.emb j) (fun k => ?_) (fun k => ?_)
  · show V c main_v62 (((cfg5.win 0).blk t).view.emb (ix2 (j 0) k)) = V c main_v62 (ix2 ((((cfg5.win 2).blk t).view.emb j) 0) k)
    refine congrArg (V c main_v62) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * k.val = k.val; omega
  · show V c main_arg9 (((cfg5.win 1).blk t).view.emb (ix2 k (j 1))) = V c main_arg9 (ix2 k ((((cfg5.win 2).blk t).view.emb j) 1))
    refine congrArg (V c main_arg9) (funext fun a => Fin.ext ?_)
    match a with
    | ⟨0, _⟩ => show win5_1.index t (0 : Fin 2) * 128 + 1 * k.val = k.val; omega
    | ⟨1, _⟩ => show win5_1.index t (1 : Fin 2) * 64 + 1 * (j 1).val = win5_2.index t (1 : Fin 2) * 64 + 1 * (j 1).val; omega

/-- An index of the output array is in point `t`'s block iff each coordinate is in the block's range on its axis. -/
theorem mem_blk5 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v63).slice (win5_2.rect t)).set ↔ _
  rw [View.set_slice_whole, Rect.mem_set_unit]
  exact Iff.rfl

/-- Every row of the output lies in the block of the point numbered by the row's quotient by 5000. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  let t : Fin cfg5.N := ⟨(i 0).val / 5000, by omega⟩
  obtain ⟨-, -, -, -, e20, e21⟩ := where5 t
  have ht : (t : ℕ) = (i 0).val / 5000 := rfl
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The array the region leaves: the product of the arrays it was entered with. -/
theorem final5 (c : Dev nD) :
    (dat5 V c).arrAt 2 cfg5.N = Cert.Gcn.product (V c main_v62) (V c main_arg9) :=
  (dat5 V c).arrAt_eq_of_cover 2 _ (fun t _ => flushed5 V c t) cover5

end Cert.KernelIdeal.Layer

end
-- ==== Proof.Region6.lean ====
/-
  The seventh pallas call (the third convolution's combination): over 20 blocks of 5000 rows, each block of the output is the block of the aggregated messages plus the block
  of projected features scaled row by row by the self-loop weights plus the bias row. The blocks tile the
  output's rows, so the array the call leaves is that combination of the arrays it was entered with.
-/
import proofs.«182192_j72765335929134_1_alg».proof.Proof.Gen.KernelIdeal.Frame
import proofs.«182192_j72765335929134_1_alg».proof.Proof.LibGcnCombine
import proofs.«182192_j72765335929134_1_alg».proof.Proof.Region0
set_option maxRecDepth 16384

noncomputable section

namespace Cert.KernelIdeal.Layer

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block's arithmetic is the combination of the loaded blocks. -/
theorem pay6 (x0 : Vec Ideal S5000x64 .f32) (x1 : Vec Ideal S5000x64 .f32) (x2 : Vec Ideal S5000x1 .f32)
    (x3 : Vec Ideal S1x64 .f32) : k6_pay1 x0 x1 x2 x3 = Cert.Gcn.combine x0 x1 x2 x3 :=
  Cert.Gcn.blockCombine x0 x1 x2 x3 shapeCasts_S5000x64_S5000x64 shapeCasts_S5000x1_S5000x1 broadcasts_S5000x1_S5000x64
    shapeCasts_S1x64_S1x64 broadcasts_S1x64_S5000x64

/-- Where each window's block sits at grid point `t`: the row-blocked windows at block row `t`, the bias row at the origin. -/
theorem where6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

set_option maxHeartbeats 1600000 in
/-- What point `t` writes back is block `t` of the combination of the arrays as the region finds them. -/
theorem flushed6 (c : Dev nD) (t : Fin cfg6.N) :
    (dat6 V c).flushed 4 t = ((cfg6.win 4).blk t).view.read (Elt Ideal)
      (Cert.Gcn.combine (V c main_v76) (V c main_v63) (V c main_v78) (V c main_v77)) := by
  show (cfg6.win 4).cut (grid6.coords t) ((dat6 V c).after 4 t) = _
  rw [after6_4]
  unfold out6_4
  rw [View.canon_unit_zero origin2]
  simp only [View.ld_unit_zero (S := S5000x64) origin2, View.ld_unit_zero (S := S5000x1) origin2,
    View.ld_unit_zero (S := S1x64) origin2]
  rw [pay6]
  obtain ⟨e00, e01, e10, e11, e20, e21, e30, e31, e40, e41⟩ := where6 t
  funext j
  show Cert.Gcn.combine (iblk6 V c 0 t) (iblk6 V c 1 t) (iblk6 V c 2 t) (iblk6 V c 3 t) j
    = Cert.Gcn.combine (V c main_v76) (V c main_v63) (V c main_v78) (V c main_v77) (((cfg6.win 4).blk t).view.emb j)
  refine Cert.Gcn.combine_at (V c main_v76) (V c main_v63) (V c main_v78) (V c main_v77) (iblk6 V c 0 t) (iblk6 V c 1 t)
    (iblk6 V c 2 t) (iblk6 V c 3 t) j (((cfg6.win 4).blk t).view.emb j) ?_ ?_ ?_ ?_
  · show V c main_v76 (((cfg6.win 0).blk t).view.emb j) = V c main_v76 (((cfg6.win 4).blk t).view.emb j)
    refine congrArg (V c main_v76) (funext fun a => Fin.ext ?_)
    match a with
    | ⟨0, _⟩ => show win6_0.index t (0 : Fin 2) * 5000 + 1 * (j 0).val = win6_4.index t (0 : Fin 2) * 5000 + 1 * (j 0).val; omega
    | ⟨1, _⟩ => show win6_0.index t (1 : Fin 2) * 64 + 1 * (j 1).val = win6_4.index t (1 : Fin 2) * 64 + 1 * (j 1).val; omega
  · show V c main_v63 (((cfg6.win 1).blk t).view.emb j) = V c main_v63 (((cfg6.win 4).blk t).view.emb j)
    refine congrArg (V c main_v63) (funext fun a => Fin.ext ?_)
    match a with
    | ⟨0, _⟩ => show win6_1.index t (0 : Fin 2) * 5000 + 1 * (j 0).val = win6_4.index t (0 : Fin 2) * 5000 + 1 * (j 0).val; omega
    | ⟨1, _⟩ => show win6_1.index t (1 : Fin 2) * 64 + 1 * (j 1).val = win6_4.index t (1 : Fin 2) * 64 + 1 * (j 1).val; omega
  · show V c main_v78 (((cfg6.win 2).blk t).view.emb (ix2 (j 0) (0 : Fin 1))) = V c main_v78 (ix2 ((((cfg6.win 4).blk t).view.emb j) 0) (0 : Fin 1))
    refine congrArg (V c main_v78) (funext fun a => Fin.ext ?_)
    match a with
    | ⟨0, _⟩ => show win6_2.index t (0 : Fin 2) * 5000 + 1 * (j 0).val = win6_4.index t (0 : Fin 2) * 5000 + 1 * (j 0).val; omega
    | ⟨1, _⟩ => show win6_2.index t (1 : Fin 2) * 1 + 1 * 0 = 0; omega
  · show V c main_v77 (((cfg6.win 3).blk t).view.emb (ix2 (0 : Fin 1) (j 1))) = V c main_v77 (ix2 (0 : Fin 1) ((((cfg6.win 4).blk t).view.emb j) 1))
    refine congrArg (V c main_v77) (funext fun a => Fin.ext ?_)
    match a with
    | ⟨0, _⟩ => show win6_3.index t (0 : Fin 2) * 1 + 1 * 0 = 0; omega
    | ⟨1, _⟩ => show win6_3.index t (1 : Fin 2) * 64 + 1 * (j 1).val = win6_4.index t (1 : Fin 2) * 64 + 1 * (j 1).val; omega

/-- An index of the output array is in point `t`'s block iff each coordinate is in the block's range on its axis. -/
theorem mem_blk6 (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v79).slice (win6_4.rect t)).set ↔ _
  rw [View.set_slice_whole, Rect.mem_set_unit]
  exact Iff.rfl

/-- Every row of the output lies in the block of the point numbered by the row's quotient by 5000. -/
theorem cover6 (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  let t : Fin cfg6.N := ⟨(i 0).val / 5000, by omega⟩
  obtain ⟨-, -, -, -, -, -, -, -, e40, e41⟩ := where6 t
  have ht : (t : ℕ) = (i 0).val / 5000 := rfl
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- The array the region leaves: the combination of the arrays it was entered with. -/
theorem final6 (c : Dev nD) :
    (dat6 V c).arrAt 4 cfg6.N = Cert.Gcn.combine (V c main_v76) (V c main_v63) (V c main_v78) (V c main_v77) :=
  (dat6 V c).arrAt_eq_of_cover 4 _ (fun t _ => flushed6 V c t) cover6

end Cert.KernelIdeal.Layer

end
-- ==== Proof.Fold.lean ====
/-
  The idealized kernel's result as a function of its arguments. Segment by segment through @main — a stretch of host
  operations, then pallas calls whose output arrays are layers of their input arrays — every buffer a later segment
  reads is identified with the reference's stage of the same name: the embedding x·W_emb + b_emb; for each convolution
  the projection h·W, the neighbourhood sum over the edges, and the combination with the self-loop term and the bias
  (rectified in the first two); last the sum over each graph's nodes.
-/
import proofs.«182192_j72765335929134_1_alg».proof.Proof.Carry
import proofs.«182192_j72765335929134_1_alg».proof.Proof.Stretch
import proofs.«182192_j72765335929134_1_alg».proof.Proof.RefLayers
import proofs.«182192_j72765335929134_1_alg».proof.Proof.Region1
import proofs.«182192_j72765335929134_1_alg».proof.Proof.Region2
import proofs.«182192_j72765335929134_1_alg».proof.Proof.Region3
import proofs.«182192_j72765335929134_1_alg».proof.Proof.Region4
import proofs.«182192_j72765335929134_1_alg».proof.Proof.Region5
import proofs.«182192_j72765335929134_1_alg».proof.Proof.Region6

set_option maxRecDepth 16384

noncomputable section

namespace Cert.KernelIdeal.Layer

open Cert.KernelIdeal Cert.KernelIdeal.Gen Idealize.ShloMosaic Idealize.ShloMosaic.TcCoe Cert.Gcn Cert.Lib
open Idealize.SL.Sem

/-! ## Each segment's result from equal inputs -/

section Congruences

variable (V : (c : Dev nD) → (b : Ref sig .tc) → Buf (Elt Ideal) ((c : Thread nD τ).loc b)) (c : Dev nD)

theorem embed_of {X : Mat 100000 128} {W : Mat 128 128} {B : Mat 1 128} (hX : V c main_arg0 = X) (hW : V c main_arg3 = W)
    (hB : V c main_v27 = B) : (dat0 V c).arrAt 3 cfg0.N = affine X W B := by
  subst hX hW hB; exact final0 V c

theorem project1_of {X : Mat 100000 128} {W : Mat 128 128} (hX : V c main_v28 = X) (hW : V c main_arg5 = W) :
    (dat1 V c).arrAt 2 cfg1.N = product X W := by
  subst hX hW; exact final1 V c

theorem combine1_of {A H : Mat 100000 128} {S : Mat 100000 1} {B : Mat 1 128} (hA : V c main_v42 = A) (hH : V c main_v29 = H)
    (hS : V c main_v44 = S) (hB : V c main_v43 = B) : (dat2 V c).arrAt 4 cfg2.N = relu (combine A H S B) := by
  subst hA hH hS hB; exact final2 V c

theorem project2_of {X : Mat 100000 128} {W : Mat 128 128} (hX : V c main_v45 = X) (hW : V c main_arg7 = W) :
    (dat3 V c).arrAt 2 cfg3.N = product X W := by
  subst hX hW; exact final3 V c

theorem combine2_of {A H : Mat 100000 128} {S : Mat 100000 1} {B : Mat 1 128} (hA : V c main_v59 = A) (hH : V c main_v46 = H)
    (hS : V c main_v61 = S) (hB : V c main_v60 = B) : (dat4 V c).arrAt 4 cfg4.N = relu (combine A H S B) := by
  subst hA hH hS hB; exact final4 V c

theorem project3_of {X : Mat 100000 128} {W : Mat 128 64} (hX : V c main_v62 = X) (hW : V c main_arg9 = W) :
    (dat5 V c).arrAt 2 cfg5.N = product X W := by
  subst hX hW; exact final5 V c

theorem combine3_of {A H : Mat 100000 64} {S : Mat 100000 1} {B : Mat 1 64} (hA : V c main_v76 = A) (hH : V c main_v63 = H)
    (hS : V c main_v78 = S) (hB : V c main_v77 = B) : (dat6 V c).arrAt 4 cfg6.N = combine A H S B := by
  subst hA hH hS hB; exact final6 V c

end Congruences

theorem agg128_of {s s' d d' : (⟨S1600000, .i32⟩ : BufTy).Contents (Elt Ideal)} {n n' : (⟨S1600000, .f32⟩ : BufTy).Contents (Elt Ideal)}
    {P P' : (⟨S100000x128, .f32⟩ : BufTy).Contents (Elt Ideal)} (hs : s = s') (hd : d = d') (hn : n = n') (hP : P = P') :
    agg128 s d n P = agg128 s' d' n' P' := by subst hs hd hn hP; rfl

theorem agg64_of {s s' d d' : (⟨S1600000, .i32⟩ : BufTy).Contents (Elt Ideal)} {n n' : (⟨S1600000, .f32⟩ : BufTy).Contents (Elt Ideal)}
    {P P' : (⟨S100000x64, .f32⟩ : BufTy).Contents (Elt Ideal)} (hs : s = s') (hd : d = d') (hn : n = n') (hP : P = P') :
    agg64 s d n P = agg64 s' d' n' P' := by subst hs hd hn hP; rfl

theorem pool_of {b b' : (⟨S100000, .i32⟩ : BufTy).Contents (Elt Ideal)} {H H' : (⟨S100000x64, .f32⟩ : BufTy).Contents (Elt Ideal)}
    (hb : b = b') (hH : H = H') : pool b H = pool b' H' := by subst hb hH; rfl

/-! ## The fold through @main -/

variable (m : (ℓ : Loc nD τ sig) → Buf (Elt Ideal) ℓ) (ρ : Dev nD → PrngReg) (c : Dev nD)

/-- The edge bookkeeping after the first stretch: sources, targets, edge weights, self-loop weights. -/
theorem src_at1 : W1 m ρ c (Proc.devRef .tc main_v1) = Cert.ReferenceIdeal.Read.val_main_v1 (F := Ideal) (m ((c : Thread nD τ).loc main_arg1)) := first_src (W0 m ρ c)
theorem dst_at1 : W1 m ρ c (Proc.devRef .tc main_v3) = Cert.ReferenceIdeal.Read.val_main_v3 (F := Ideal) (m ((c : Thread nD τ).loc main_arg1)) := first_dst (W0 m ρ c)
theorem edge_weight_at1 : W1 m ρ c (Proc.devRef .tc main_v25) = Cert.ReferenceIdeal.Read.val_main_v25 (F := Ideal) (m ((c : Thread nD τ).loc main_arg1)) := first_edge_weight (W0 m ρ c)
theorem self_weight_at1 : W1 m ρ c (Proc.devRef .tc main_v26) = Cert.ReferenceIdeal.Read.val_main_v26 (F := Ideal) (m ((c : Thread nD τ).loc main_arg1)) := first_self_weight (W0 m ρ c)

/-- The embedding's bias as one row. -/
theorem bias_row_at1 : W1 m ρ c (Proc.devRef .tc main_v27) = asRow (m ((c : Thread nD τ).loc main_arg4)) :=
  (first_bias_row (W0 m ρ c)).trans (shapeCast_eq_asRow _ shapeCasts_S128_S1x128)

/-- The embedding layer's output is the reference's embedding. -/
theorem embedding : W2 m ρ c (Proc.devRef .tc main_v28) = Cert.ReferenceIdeal.Read.val_main_v30 (F := Ideal) (m ((c : Thread nD τ).loc main_arg0)) (m ((c : Thread nD τ).loc main_arg3)) (m ((c : Thread nD τ).loc main_arg4)) :=
  (W2_arr m ρ c 3).trans ((embed_of (V1 m ρ) c (arg0_at1 m ρ c) (arg3_at1 m ρ c) (bias_row_at1 m ρ c)).trans
    (Cert.ReferenceIdeal.Layer.embed (m ((c : Thread nD τ).loc main_arg0)) (m ((c : Thread nD τ).loc main_arg3)) (m ((c : Thread nD τ).loc main_arg4))).symm)

/-- The first convolution's projection. -/
theorem projection1 : W3 m ρ c (Proc.devRef .tc main_v29) = Cert.ReferenceIdeal.Read.val_main_v31 (F := Ideal) (m ((c : Thread nD τ).loc main_arg0)) (m ((c : Thread nD τ).loc main_arg3)) (m ((c : Thread nD τ).loc main_arg4)) (m ((c : Thread nD τ).loc main_arg5)) :=
  (W3_arr m ρ c 2).trans ((project1_of (V2 m ρ) c (embedding m ρ c) (arg5_at2 m ρ c)).trans
    (Cert.ReferenceIdeal.Layer.project_first (m ((c : Thread nD τ).loc main_arg0)) (m ((c : Thread nD τ).loc main_arg3)) (m ((c : Thread nD τ).loc main_arg4)) (m ((c : Thread nD τ).loc main_arg5))).symm)

/-- Its neighbourhood sum. -/
theorem aggregate1 : W4 m ρ c (Proc.devRef .tc main_v42) = Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (second_agg (W3 m ρ c)).trans ((agg128_of ((v1_at3 m ρ c).trans (src_at1 m ρ c)) ((v3_at3 m ρ c).trans (dst_at1 m ρ c))
    ((v25_at3 m ρ c).trans (edge_weight_at1 m ρ c)) (projection1 m ρ c)).trans
    (ref_agg_first (m ((c : Thread nD τ).loc main_arg0)) (m ((c : Thread nD τ).loc main_arg1)) (m ((c : Thread nD τ).loc main_arg3)) (m ((c : Thread nD τ).loc main_arg4)) (m ((c : Thread nD τ).loc main_arg5))).symm)

theorem bias_row_at4 : W4 m ρ c (Proc.devRef .tc main_v43) = asRow (m ((c : Thread nD τ).loc main_arg6)) :=
  (second_bias_row (W3 m ρ c)).trans ((congrArg (fun y => shapeCast S1x128 y shapeCasts_S128_S1x128) (arg6_at3 m ρ c)).trans
    (shapeCast_eq_asRow _ shapeCasts_S128_S1x128))

theorem weight_col_at4 : W4 m ρ c (Proc.devRef .tc main_v44) = (broadcastInDim Cert.ReferenceIdeal.S100000x1 ![0] Cert.ReferenceIdeal.Facts₀.bcast_S100000_S100000x1_0 (Cert.ReferenceIdeal.Read.val_main_v26 (F := Ideal) (m ((c : Thread nD τ).loc main_arg1)))) :=
  (second_weight_col (W3 m ρ c)).trans ((congrArg (fun y => shapeCast S100000x1 y shapeCasts_S100000_S100000x1)
    ((v26_at3 m ρ c).trans (self_weight_at1 m ρ c))).trans
    (shapeCast_eq_broadcastInDim_col _ shapeCasts_S100000_S100000x1 Cert.ReferenceIdeal.Facts₀.bcast_S100000_S100000x1_0))

/-- The first convolution's output. -/
theorem convolution1 : W5 m ρ c (Proc.devRef .tc main_v45) = Cert.ReferenceIdeal.Read.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W5_arr m ρ c 4).trans ((combine1_of (V4 m ρ) c (aggregate1 m ρ c) ((v29_at4 m ρ c).trans (projection1 m ρ c))
    (weight_col_at4 m ρ c) (bias_row_at4 m ρ c)).trans
    (Cert.ReferenceIdeal.Layer.conv_first (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm)

/-- The second convolution's projection. -/
theorem projection2 : W6 m ρ c (Proc.devRef .tc main_v46) = Cert.ReferenceIdeal.Read.val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 2).trans ((project2_of (V5 m ρ) c (convolution1 m ρ c) (arg7_at5 m ρ c)).trans
    (Cert.ReferenceIdeal.Layer.project_second (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))).symm)

theorem aggregate2 : W7 m ρ c (Proc.devRef .tc main_v59) = Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (third_agg (W6 m ρ c)).trans ((agg128_of ((v1_at6 m ρ c).trans (src_at1 m ρ c)) ((v3_at6 m ρ c).trans (dst_at1 m ρ c))
    ((v25_at6 m ρ c).trans (edge_weight_at1 m ρ c)) (projection2 m ρ c)).trans
    (ref_agg_second (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))).symm)

theorem bias_row_at7 : W7 m ρ c (Proc.devRef .tc main_v60) = asRow (m ((c : Thread nD τ).loc main_arg8)) :=
  (third_bias_row (W6 m ρ c)).trans ((congrArg (fun y => shapeCast S1x128 y shapeCasts_S128_S1x128) (arg8_at6 m ρ c)).trans
    (shapeCast_eq_asRow _ shapeCasts_S128_S1x128))

theorem weight_col_at7 : W7 m ρ c (Proc.devRef .tc main_v61) = (broadcastInDim Cert.ReferenceIdeal.S100000x1 ![0] Cert.ReferenceIdeal.Facts₀.bcast_S100000_S100000x1_0 (Cert.ReferenceIdeal.Read.val_main_v26 (F := Ideal) (m ((c : Thread nD τ).loc main_arg1)))) :=
  (third_weight_col (W6 m ρ c)).trans ((congrArg (fun y => shapeCast S100000x1 y shapeCasts_S100000_S100000x1)
    ((v26_at6 m ρ c).trans (self_weight_at1 m ρ c))).trans
    (shapeCast_eq_broadcastInDim_col _ shapeCasts_S100000_S100000x1 Cert.ReferenceIdeal.Facts₀.bcast_S100000_S100000x1_0))

/-- The second convolution's output. -/
theorem convolution2 : W8 m ρ c (Proc.devRef .tc main_v62) = Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 4).trans ((combine2_of (V7 m ρ) c (aggregate2 m ρ c) ((v46_at7 m ρ c).trans (projection2 m ρ c))
    (weight_col_at7 m ρ c) (bias_row_at7 m ρ c)).trans
    (Cert.ReferenceIdeal.Layer.conv_second (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm)

/-- The third convolution's projection. -/
theorem projection3 : W9 m ρ c (Proc.devRef .tc main_v63) = Cert.ReferenceIdeal.Read.val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W9_arr m ρ c 2).trans ((project3_of (V8 m ρ) c (convolution2 m ρ c) (arg9_at8 m ρ c)).trans
    (Cert.ReferenceIdeal.Layer.project_third (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm)

theorem aggregate3 : W10 m ρ c (Proc.devRef .tc main_v76) = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (fourth_agg (W9 m ρ c)).trans ((agg64_of ((v1_at9 m ρ c).trans (src_at1 m ρ c)) ((v3_at9 m ρ c).trans (dst_at1 m ρ c))
    ((v25_at9 m ρ c).trans (edge_weight_at1 m ρ c)) (projection3 m ρ c)).trans
    (ref_agg_third (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm)

theorem bias_row_at10 : W10 m ρ c (Proc.devRef .tc main_v77) = asRow (m ((c : Thread nD τ).loc main_arg10)) :=
  (fourth_bias_row (W9 m ρ c)).trans ((congrArg (fun y => shapeCast S1x64 y shapeCasts_S64_S1x64) (arg10_at9 m ρ c)).trans
    (shapeCast_eq_asRow _ shapeCasts_S64_S1x64))

theorem weight_col_at10 : W10 m ρ c (Proc.devRef .tc main_v78) = (broadcastInDim Cert.ReferenceIdeal.S100000x1 ![0] Cert.ReferenceIdeal.Facts₀.bcast_S100000_S100000x1_0 (Cert.ReferenceIdeal.Read.val_main_v26 (F := Ideal) (m ((c : Thread nD τ).loc main_arg1)))) :=
  (fourth_weight_col (W9 m ρ c)).trans ((congrArg (fun y => shapeCast S100000x1 y shapeCasts_S100000_S100000x1)
    ((v26_at9 m ρ c).trans (self_weight_at1 m ρ c))).trans
    (shapeCast_eq_broadcastInDim_col _ shapeCasts_S100000_S100000x1 Cert.ReferenceIdeal.Facts₀.bcast_S100000_S100000x1_0))

/-- The third convolution's output. -/
theorem convolution3 : W11 m ρ c (Proc.devRef .tc main_v79) = Cert.ReferenceIdeal.Read.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W11_arr m ρ c 4).trans ((combine3_of (V10 m ρ) c (aggregate3 m ρ c) ((v63_at10 m ρ c).trans (projection3 m ρ c))
    (weight_col_at10 m ρ c) (bias_row_at10 m ρ c)).trans
    (Cert.ReferenceIdeal.Layer.conv_third (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm)

/-- THE KERNEL'S RESULT: the sum over each graph of the third convolution's rows, the reference's last stage. -/
theorem result : W12 m ρ c (Proc.devRef .tc main_v82) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (last_pool (W11 m ρ c)).trans ((pool_of (arg2_at11 m ρ c) (convolution3 m ρ c)).trans
    (ref_pool (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm)

end Cert.KernelIdeal.Layer

end
-- ==== Proof.lean ====
/-
  The certificate of a three-layer graph convolution network with a sum pool, whose dense stages run as seven pallas
  calls, against its whole-array reference.

  Both programs compute, from node features x, an edge list and the graphs' node assignment:
    d = rsqrt(1 + in-degree);  h₀ = x·W_emb + b_emb;
    for each layer l:  p = h·W_l;  agg(v) = Σ over edges e into v of p(src e)·d(src e)·d(dst e);
                       h ← agg + p·(d·d) + b_l  (rectified in the first two layers);
    out(g) = Σ over the nodes v of graph g of h₃(v).
  The kernel runs the embedding, the three projections and the three combinations as calls tiled over 20 blocks of 5000
  node rows — narrowing the matrix unit's operands, which on the extended reals is the identity — and keeps the edge
  bookkeeping, the lookups and the accumulations on the host, exactly as the reference spells them. Each call's output
  array is its layer of the input arrays because every output entry depends on one row of the row-indexed operands and
  the blocks tile the rows (Region0 … Region6 over LibGcnCombine); the host stretches between the calls are the reference's
  own operations (Stretch); folding through @main identifies every buffer with the reference's stage of the same
  meaning (Carry, Fold), so the two results are one function of the arguments, with no appeal to finiteness: no
  algebraic law is used beyond reading a product, a broadcast and a maximum entry by entry.
  The three frames are the generated ones (the reference's is its generated run with the result dropped), and the ideal
  pass rewrote nothing, so `preserves` is trivial.
-/
import proofs.«182192_j72765335929134_1_alg».proof.Defs
import proofs.«182192_j72765335929134_1_alg».proof.Proof.Gen.Kernel
import proofs.«182192_j72765335929134_1_alg».proof.Proof.Gen.Kernel.Skeleton
import proofs.«182192_j72765335929134_1_alg».proof.Proof.Gen.Kernel.Launch
import proofs.«182192_j72765335929134_1_alg».proof.Proof.Gen.Kernel.Points
import proofs.«182192_j72765335929134_1_alg».proof.Proof.Gen.Kernel.Frame
import proofs.«182192_j72765335929134_1_alg».proof.Proof.Gen.KernelIdeal
import proofs.«182192_j72765335929134_1_alg».proof.Proof.Gen.KernelIdeal.Skeleton
import proofs.«182192_j72765335929134_1_alg».proof.Proof.Gen.KernelIdeal.Launch
import proofs.«182192_j72765335929134_1_alg».proof.Proof.Gen.KernelIdeal.Points
import proofs.«182192_j72765335929134_1_alg».proof.Proof.Gen.KernelIdeal.Frame
import proofs.«182192_j72765335929134_1_alg».proof.Proof.Gen.ReferenceIdeal
import proofs.«182192_j72765335929134_1_alg».proof.Proof.Gen.Pre_finite_inputs
import proofs.«182192_j72765335929134_1_alg».proof.Proof.Gen.ReferenceIdeal.Run
import proofs.«182192_j72765335929134_1_alg».proof.Proof.Gen.ReferenceIdeal.Read
import proofs.«182192_j72765335929134_1_alg».proof.Proof.KernelRun
import proofs.«182192_j72765335929134_1_alg».proof.Proof.Fold
import Idealize.ShloMosaic.Adequacy
import Idealize.ShloMosaic.Init

set_option maxRecDepth 16384

noncomputable section

namespace Cert.Proof

open Idealize.ShloMosaic Idealize.SL.Sem

/-- From memories agreeing on the arguments both idealized programs end with the reference's last stage of the
    kernel's arguments in their result: the kernel by the fold through @main, the reference by its generated run. -/
theorem algebraic : Cert.algebraic_KernelIdeal_ReferenceIdeal := by
  intro m ρ m' ρ' _ hagree
  refine ⟨fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Layer.result m ρ c), (h c).2⟩) (Cert.KernelIdeal.Layer.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v98_eq]
    obtain ⟨a0, a1, a2, a3, a4, a5, a6, a7, a8, a9, a10⟩ := hagree c
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
